-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x64x56x56 : Shape := ⟨4, ![32, 64, 56, 56]⟩
abbrev S128x64x3x3 : Shape := ⟨4, ![128, 64, 3, 3]⟩
abbrev S128 : Shape := ⟨1, ![128]⟩
abbrev S_ : Shape := ⟨0, ![]⟩

class Facts : Prop where
  bcast_S_S32x64x56x56 : S_.BroadcastsInDim S32x64x56x56 (![] : Fin 0 → Fin S32x64x56x56.rank)
  reducesTo_S32x64x56x56_S_d0_1_2_3 : S32x64x56x56.ReducesTo [0, 1, 2, 3] S_
  h_S_ : 0 < S_.numel
  bcast_S_S128x64x3x3 : S_.BroadcastsInDim S128x64x3x3 (![] : Fin 0 → Fin S128x64x3x3.rank)
  reducesTo_S128x64x3x3_S_d0_1_2_3 : S128x64x3x3.ReducesTo [0, 1, 2, 3] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S32x64x56x56 .f32) (main_arg1 : FVec F S128x64x3x3 .f32) (main_arg2 : FVec F S128 .f32) (main_arg3 : FVec F S128 .f32) : IVec S_ 1 :=
  let main_v0 : FVec F S32x64x56x56 .f32 := Host.absf main_arg0
  let main_cst : FVec F S_ .f32 := constant S_ .f32 0x7F800000#32
  let main_v1 : FVec F S32x64x56x56 .f32 := broadcastInDim S32x64x56x56 ![] bcast_S_S32x64x56x56 main_cst
  let main_v2 : IVec S32x64x56x56 1 := cmpf .olt main_v0 main_v1
  let main_c : IVec S_ 1 := constantI S_ 1 1#1
  let main_v3 : IVec S_ 1 := (fun x v => Host.reduce IntOp.andi x v reducesTo_S32x64x56x56_S_d0_1_2_3 h_S_) main_v2 main_c
  let main_v4 : FVec F S128x64x3x3 .f32 := Host.absf main_arg1
  let main_cst_0 : FVec F S_ .f32 := constant S_ .f32 0x7F800000#32
  let main_v5 : FVec F S128x64x3x3 .f32 := broadcastInDim S128x64x3x3 ![] bcast_S_S128x64x3x3 main_cst_0
  let main_v6 : IVec S128x64x3x3 1 := cmpf .olt main_v4 main_v5
  let main_c_1 : IVec S_ 1 := constantI S_ 1 1#1
  let main_v7 : IVec S_ 1 := (fun x v => Host.reduce IntOp.andi x v reducesTo_S128x64x3x3_S_d0_1_2_3 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S32x64x56x56 : Shape := ⟨4, ![32, 64, 56, 56]⟩
abbrev S128x64x3x3 : Shape := ⟨4, ![128, 64, 3, 3]⟩
abbrev S128 : Shape := ⟨1, ![128]⟩
abbrev S32x56x56x64 : Shape := ⟨4, ![32, 56, 56, 64]⟩
abbrev S_ : Shape := ⟨0, ![]⟩
abbrev S32x58x58x64 : Shape := ⟨4, ![32, 58, 58, 64]⟩
abbrev S128x3x3x64 : Shape := ⟨4, ![128, 3, 3, 64]⟩
abbrev S128x576 : Shape := ⟨2, ![128, 576]⟩
abbrev S32x128x3136 : Shape := ⟨3, ![32, 128, 3136]⟩
abbrev S8x128x2 : Shape := ⟨3, ![8, 128, 2]⟩
abbrev S128x2 : Shape := ⟨2, ![128, 2]⟩
abbrev S128x1 : Shape := ⟨2, ![128, 1]⟩
abbrev S32x128x56x56 : Shape := ⟨4, ![32, 128, 56, 56]⟩
abbrev S4x58x58x64 : Shape := ⟨4, ![4, 58, 58, 64]⟩
abbrev S4x128x3136 : Shape := ⟨3, ![4, 128, 3136]⟩
abbrev S1x128x2 : Shape := ⟨3, ![1, 128, 2]⟩
abbrev S1x58x58x64 : Shape := ⟨4, ![1, 58, 58, 64]⟩
abbrev S58x58x64 : Shape := ⟨3, ![58, 58, 64]⟩
abbrev S56x56x64 : Shape := ⟨3, ![56, 56, 64]⟩
abbrev S3136x64 : Shape := ⟨2, ![3136, 64]⟩
abbrev S3136x576 : Shape := ⟨2, ![3136, 576]⟩
abbrev S128x3136 : Shape := ⟨2, ![128, 3136]⟩
abbrev S1x128x3136 : Shape := ⟨3, ![1, 128, 3136]⟩
abbrev S1x128x1 : Shape := ⟨3, ![1, 128, 1]⟩

abbrev nBuf : Space → Nat
  | .hbm => 49
  | .vmem => 13
  | .smem => 0
  | _ => 0

abbrev bufTy : (tb : Table) → Fin (tcTables nBuf tb) → BufTy
  | .hbm, ⟨0, _⟩ => ⟨S32x64x56x56, .f32⟩
  | .hbm, ⟨1, _⟩ => ⟨S128x64x3x3, .f32⟩
  | .hbm, ⟨2, _⟩ => ⟨S128, .f32⟩
  | .hbm, ⟨3, _⟩ => ⟨S128, .f32⟩
  | .hbm, ⟨4, _⟩ => ⟨S32x56x56x64, .f32⟩
  | .hbm, ⟨5, _⟩ => ⟨S32x56x56x64, .bf16⟩
  | .hbm, ⟨6, _⟩ => ⟨S_, .i32⟩
  | .hbm, ⟨7, _⟩ => ⟨S_, .bf16⟩
  | .hbm, ⟨8, _⟩ => ⟨S32x58x58x64, .bf16⟩
  | .hbm, ⟨9, _⟩ => ⟨S128x3x3x64, .f32⟩
  | .hbm, ⟨10, _⟩ => ⟨S128x576, .f32⟩
  | .hbm, ⟨11, _⟩ => ⟨S_, .i32⟩
  | .hbm, ⟨12, _⟩ => ⟨S_, .f32⟩
  | .hbm, ⟨13, _⟩ => ⟨S128x576, .f32⟩
  | .hbm, ⟨14, _⟩ => ⟨S128x576, .bf16⟩
  | .hbm, ⟨15, _⟩ => ⟨S32x128x3136, .bf16⟩
  | .hbm, ⟨16, _⟩ => ⟨S8x128x2, .f32⟩
  | .hbm, ⟨17, _⟩ => ⟨S_, .f32⟩
  | .hbm, ⟨18, _⟩ => ⟨S128x2, .f32⟩
  | .hbm, ⟨19, _⟩ => ⟨S128x1, .f32⟩
  | .hbm, ⟨20, _⟩ => ⟨S128, .f32⟩
  | .hbm, ⟨21, _⟩ => ⟨S_, .f32⟩
  | .hbm, ⟨22, _⟩ => ⟨S128, .f32⟩
  | .hbm, ⟨23, _⟩ => ⟨S128, .f32⟩
  | .hbm, ⟨24, _⟩ => ⟨S128x1, .f32⟩
  | .hbm, ⟨25, _⟩ => ⟨S128, .f32⟩
  | .hbm, ⟨26, _⟩ => ⟨S_, .f32⟩
  | .hbm, ⟨27, _⟩ => ⟨S128, .f32⟩
  | .hbm, ⟨28, _⟩ => ⟨S128, .f32⟩
  | .hbm, ⟨29, _⟩ => ⟨S128, .f32⟩
  | .hbm, ⟨30, _⟩ => ⟨S128, .f32⟩
  | .hbm, ⟨31, _⟩ => ⟨S_, .i32⟩
  | .hbm, ⟨32, _⟩ => ⟨S_, .f32⟩
  | .hbm, ⟨33, _⟩ => ⟨S128, .f32⟩
  | .hbm, ⟨34, _⟩ => ⟨S_, .i32⟩
  | .hbm, ⟨35, _⟩ => ⟨S_, .f32⟩
  | .hbm, ⟨36, _⟩ => ⟨S128, .f32⟩
  | .hbm, ⟨37, _⟩ => ⟨S_, .f32⟩
  | .hbm, ⟨38, _⟩ => ⟨S128, .f32⟩
  | .hbm, ⟨39, _⟩ => ⟨S128, .f32⟩
  | .hbm, ⟨40, _⟩ => ⟨S128, .f32⟩
  | .hbm, ⟨41, _⟩ => ⟨S128, .f32⟩
  | .hbm, ⟨42, _⟩ => ⟨S128x1, .f32⟩
  | .hbm, ⟨43, _⟩ => ⟨S128, .f32⟩
  | .hbm, ⟨44, _⟩ => ⟨S128, .f32⟩
  | .hbm, ⟨45, _⟩ => ⟨S128, .f32⟩
  | .hbm, ⟨46, _⟩ => ⟨S128x1, .f32⟩
  | .hbm, ⟨47, _⟩ => ⟨S32x128x3136, .f32⟩
  | .hbm, ⟨48, _⟩ => ⟨S32x128x56x56, .f32⟩
  | .local _ .vmem, ⟨0, _⟩ => ⟨S4x58x58x64, .bf16⟩
  | .local _ .vmem, ⟨1, _⟩ => ⟨S4x58x58x64, .bf16⟩
  | .local _ .vmem, ⟨2, _⟩ => ⟨S128x576, .bf16⟩
  | .local _ .vmem, ⟨3, _⟩ => ⟨S4x128x3136, .bf16⟩
  | .local _ .vmem, ⟨4, _⟩ => ⟨S4x128x3136, .bf16⟩
  | .local _ .vmem, ⟨5, _⟩ => ⟨S1x128x2, .f32⟩
  | .local _ .vmem, ⟨6, _⟩ => ⟨S1x128x2, .f32⟩
  | .local _ .vmem, ⟨7, _⟩ => ⟨S4x128x3136, .bf16⟩
  | .local _ .vmem, ⟨8, _⟩ => ⟨S4x128x3136, .bf16⟩
  | .local _ .vmem, ⟨9, _⟩ => ⟨S128x1, .f32⟩
  | .local _ .vmem, ⟨10, _⟩ => ⟨S128x1, .f32⟩
  | .local _ .vmem, ⟨11, _⟩ => ⟨S4x128x3136, .f32⟩
  | .local _ .vmem, ⟨12, _⟩ => ⟨S4x128x3136, .f32⟩
  | _, _ => ⟨S32x64x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_c : Ref sig .tc := ⟨.hbm, 6, rfl⟩
abbrev main_call0_call0_v0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_c_0 : Ref sig .tc := ⟨.hbm, 11, rfl⟩
abbrev main_call0_call1_v0 : Ref sig .tc := ⟨.hbm, 12, rfl⟩
abbrev main_call0_v5 : Ref sig .tc := ⟨.hbm, 13, rfl⟩
abbrev main_call0_v6 : Ref sig .tc := ⟨.hbm, 14, rfl⟩
abbrev main_call0_v7_0 : Ref sig .tc := ⟨.hbm, 15, rfl⟩
abbrev main_call0_v7_1 : Ref sig .tc := ⟨.hbm, 16, rfl⟩
abbrev main_call0_cst : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_cst_1 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst_2 : Ref sig .tc := ⟨.hbm, 26, rfl⟩
abbrev main_call0_v15 : Ref sig .tc := ⟨.hbm, 27, rfl⟩
abbrev main_call0_v16 : Ref sig .tc := ⟨.hbm, 28, rfl⟩
abbrev main_call0_v17 : Ref sig .tc := ⟨.hbm, 29, rfl⟩
abbrev main_call0_v18 : Ref sig .tc := ⟨.hbm, 30, rfl⟩
abbrev main_call0_c_3 : Ref sig .tc := ⟨.hbm, 31, rfl⟩
abbrev main_call0_call2_v0 : Ref sig .tc := ⟨.hbm, 32, rfl⟩
abbrev main_call0_v19 : Ref sig .tc := ⟨.hbm, 33, rfl⟩
abbrev main_call0_c_4 : Ref sig .tc := ⟨.hbm, 34, rfl⟩
abbrev main_call0_call3_v0 : Ref sig .tc := ⟨.hbm, 35, rfl⟩
abbrev main_call0_v20 : Ref sig .tc := ⟨.hbm, 36, rfl⟩
abbrev main_call0_cst_5 : Ref sig .tc := ⟨.hbm, 37, rfl⟩
abbrev main_call0_v21 : Ref sig .tc := ⟨.hbm, 38, rfl⟩
abbrev main_call0_v22 : Ref sig .tc := ⟨.hbm, 39, rfl⟩
abbrev main_call0_v23 : Ref sig .tc := ⟨.hbm, 40, rfl⟩
abbrev main_call0_v24 : Ref sig .tc := ⟨.hbm, 41, rfl⟩
abbrev main_call0_v25 : Ref sig .tc := ⟨.hbm, 42, rfl⟩
abbrev main_call0_v26 : Ref sig .tc := ⟨.hbm, 43, rfl⟩
abbrev main_call0_v27 : Ref sig .tc := ⟨.hbm, 44, rfl⟩
abbrev main_call0_v28 : Ref sig .tc := ⟨.hbm, 45, rfl⟩
abbrev main_call0_v29 : Ref sig .tc := ⟨.hbm, 46, rfl⟩
abbrev main_call0_v30 : Ref sig .tc := ⟨.hbm, 47, rfl⟩
abbrev main_v0 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x58x58x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x576 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4x128x3136 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S4x128x3136 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4x128x3136 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  transposes_S32x64x56x56_S32x56x56x64_0_2_3_1 : S32x64x56x56.Transposes [0, 2, 3, 1] S32x56x56x64
  bitsLt_bf16_f32 : FTy.bits .bf16 < FTy.bits .f32
  pads_S32x56x56x64_S32x58x58x64_000_110_110_000 : S32x56x56x64.Pads (![0, 1, 1, 0] : Fin 4 → Nat) ![0, 1, 1, 0] ![0, 0, 0, 0] S32x58x58x64
  h_S_ : 0 < S_.numel
  transposes_S128x64x3x3_S128x3x3x64_0_2_3_1 : S128x64x3x3.Transposes [0, 2, 3, 1] S128x3x3x64
  shapeCasts_S128x3x3x64_S128x576 : S128x3x3x64.ShapeCasts S128x576
  pads_S128x576_S128x576_000_000 : S128x576.Pads (![0, 0] : Fin 2 → Nat) ![0, 0] ![0, 0] S128x576
  reducesTo_S8x128x2_S128x2_d0 : S8x128x2.ReducesTo [0] S128x2
  slices_S128x2_S128x1_0_0 : S128x2.Slices ![0, 0] S128x1
  shapeCasts_S128x1_S128 : S128x1.ShapeCasts S128
  bcast_S_S128 : S_.BroadcastsInDim S128 (![] : Fin 0 → Fin S128.rank)
  slices_S128x2_S128x1_0_1 : S128x2.Slices ![0, 1] S128x1
  pads_S128_S128_000 : S128.Pads (![0] : Fin 1 → Nat) ![0] ![0] S128
  shapeCasts_S128_S128x1 : S128.ShapeCasts S128x1
  shapeCasts_S32x128x3136_S32x128x56x56 : S32x128x3136.ShapeCasts S32x128x56x56
  inb_S4x58x58x64_S1x58x58x64_0_0_0_0 : ∀ a, (![0, 0, 0, 0] : Fin 4 → Nat) a + S1x58x58x64.size a ≤ S4x58x58x64.size a
  h_S1x58x58x64 : 0 < S1x58x58x64.numel
  shapeCasts_S1x58x58x64_S58x58x64 : S1x58x58x64.ShapeCasts S58x58x64
  slices_S58x58x64_o0_0_0_S56x56x64 : S58x58x64.Slices ![0, 0, 0] S56x56x64
  shapeCasts_S56x56x64_S3136x64 : S56x56x64.ShapeCasts S3136x64
  slices_S58x58x64_o0_1_0_S56x56x64 : S58x58x64.Slices ![0, 1, 0] S56x56x64
  slices_S58x58x64_o0_2_0_S56x56x64 : S58x58x64.Slices ![0, 2, 0] S56x56x64
  slices_S58x58x64_o1_0_0_S56x56x64 : S58x58x64.Slices ![1, 0, 0] S56x56x64
  slices_S58x58x64_o1_1_0_S56x56x64 : S58x58x64.Slices ![1, 1, 0] S56x56x64
  slices_S58x58x64_o1_2_0_S56x56x64 : S58x58x64.Slices ![1, 2, 0] S56x56x64
  slices_S58x58x64_o2_0_0_S56x56x64 : S58x58x64.Slices ![2, 0, 0] S56x56x64
  slices_S58x58x64_o2_1_0_S56x56x64 : S58x58x64.Slices ![2, 1, 0] S56x56x64
  slices_S58x58x64_o2_2_0_S56x56x64 : S58x58x64.Slices ![2, 2, 0] S56x56x64
  concatenates_S3136x64_S3136x64_S3136x64_S3136x64_S3136x64_S3136x64_S3136x64_S3136x64_S3136x64_S3136x576_d1 : Shape.Concatenates [S3136x64, S3136x64, S3136x64, S3136x64, S3136x64, S3136x64, S3136x64, S3136x64, S3136x64] S3136x576 1
  inb_S128x576_S128x576_0_0 : ∀ a, (![0, 0] : Fin 2 → Nat) a + S128x576.size a ≤ S128x576.size a
  h_S128x576 : 0 < S128x576.numel
  shapeCasts_S128x576_S128x576 : S128x576.ShapeCasts S128x576
  reduces_S128x3136_S128 : S128x3136.Reduces [1] S128
  inb_S4x128x3136_S1x128x3136_0_0_0 : ∀ a, (![0, 0, 0] : Fin 3 → Nat) a + S1x128x3136.size a ≤ S4x128x3136.size a
  h_S1x128x3136 : 0 < S1x128x3136.numel
  shapeCasts_S1x128x3136_S128x3136 : S1x128x3136.ShapeCasts S128x3136
  shapeCasts_S128x3136_S1x128x3136 : S128x3136.ShapeCasts S1x128x3136
  packedbf16_S4x128x3136_S1x128x3136_0_0_0 : (Rect.unit (s := S4x128x3136) ![0, 0, 0] S1x128x3136.size inb_S4x128x3136_S1x128x3136_0_0_0).PackedRows (EltTy.packing .bf16)
  inb_S4x58x58x64_S1x58x58x64_1_0_0_0 : ∀ a, (![1, 0, 0, 0] : Fin 4 → Nat) a + S1x58x58x64.size a ≤ S4x58x58x64.size a
  inb_S4x128x3136_S1x128x3136_1_0_0 : ∀ a, (![1, 0, 0] : Fin 3 → Nat) a + S1x128x3136.size a ≤ S4x128x3136.size a
  packedbf16_S4x128x3136_S1x128x3136_1_0_0 : (Rect.unit (s := S4x128x3136) ![1, 0, 0] S1x128x3136.size inb_S4x128x3136_S1x128x3136_1_0_0).PackedRows (EltTy.packing .bf16)
  inb_S4x58x58x64_S1x58x58x64_2_0_0_0 : ∀ a, (![2, 0, 0, 0] : Fin 4 → Nat) a + S1x58x58x64.size a ≤ S4x58x58x64.size a
  inb_S4x128x3136_S1x128x3136_2_0_0 : ∀ a, (![2, 0, 0] : Fin 3 → Nat) a + S1x128x3136.size a ≤ S4x128x3136.size a
  packedbf16_S4x128x3136_S1x128x3136_2_0_0 : (Rect.unit (s := S4x128x3136) ![2, 0, 0] S1x128x3136.size inb_S4x128x3136_S1x128x3136_2_0_0).PackedRows (EltTy.packing .bf16)
  inb_S4x58x58x64_S1x58x58x64_3_0_0_0 : ∀ a, (![3, 0, 0, 0] : Fin 4 → Nat) a + S1x58x58x64.size a ≤ S4x58x58x64.size a
  inb_S4x128x3136_S1x128x3136_3_0_0 : ∀ a, (![3, 0, 0] : Fin 3 → Nat) a + S1x128x3136.size a ≤ S4x128x3136.size a
  packedbf16_S4x128x3136_S1x128x3136_3_0_0 : (Rect.unit (s := S4x128x3136) ![3, 0, 0] S1x128x3136.size inb_S4x128x3136_S1x128x3136_3_0_0).PackedRows (EltTy.packing .bf16)
  concatenates_S128x1_S128x1_S128x2_d1 : Shape.Concatenates [S128x1, S128x1] S128x2 1
  inb_S1x128x2_S1x128x2_0_0_0 : ∀ a, (![0, 0, 0] : Fin 3 → Nat) a + S1x128x2.size a ≤ S1x128x2.size a
  h_S1x128x2 : 0 < S1x128x2.numel
  shapeCasts_S1x128x2_S128x2 : S1x128x2.ShapeCasts S128x2
  shapeCasts_S128x2_S1x128x2 : S128x2.ShapeCasts S1x128x2
  inb_S4x128x3136_S4x128x3136_0_0_0 : ∀ a, (![0, 0, 0] : Fin 3 → Nat) a + S4x128x3136.size a ≤ S4x128x3136.size a
  h_S4x128x3136 : 0 < S4x128x3136.numel
  shapeCasts_S4x128x3136_S4x128x3136 : S4x128x3136.ShapeCasts S4x128x3136
  inb_S128x1_S128x1_0_0 : ∀ a, (![0, 0] : Fin 2 → Nat) a + S128x1.size a ≤ S128x1.size a
  h_S128x1 : 0 < S128x1.numel
  shapeCasts_S128x1_S128x1 : S128x1.ShapeCasts S128x1
  shapeCasts_S128x1_S1x128x1 : S128x1.ShapeCasts S1x128x1
  broadcasts_S1x128x1_S4x128x3136 : S1x128x1.Broadcasts S4x128x3136
  dot_S128x576_S3136x576_S128x3136_1_1_0_0_n_n_wf : DotDims.WF S128x576 S3136x576 S128x3136 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x58x58x64.size a ≤ S32x58x58x64.size a
  hwx0_0 : ∀ i : grid0.Coords, EltTy.bits .bf16 = 32 ∨ (Rect.block (s := S32x58x58x64) S4x58x58x64.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x576.size a ≤ S128x576.size a
  hwx0_1 : ∀ i : grid0.Coords, EltTy.bits .bf16 = 32 ∨ (Rect.block (s := S128x576) S128x576.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x128x3136.size a ≤ S32x128x3136.size a
  hwx0_2 : ∀ i : grid0.Coords, EltTy.bits .bf16 = 32 ∨ (Rect.block (s := S32x128x3136) S4x128x3136.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x2.size a ≤ S8x128x2.size a
  hwx0_3 : ∀ i : grid0.Coords, EltTy.bits .f32 = 32 ∨ (Rect.block (s := S8x128x2) S1x128x2.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x128x3136.size a ≤ S32x128x3136.size a
  hwx1_0 : ∀ i : grid1.Coords, EltTy.bits .bf16 = 32 ∨ (Rect.block (s := S32x128x3136) S4x128x3136.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x1.size a ≤ S128x1.size a
  hwx1_1 : ∀ i : grid1.Coords, EltTy.bits .f32 = 32 ∨ (Rect.block (s := S128x1) S128x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x1.size a ≤ S128x1.size a
  hwx1_2 : ∀ i : grid1.Coords, EltTy.bits .f32 = 32 ∨ (Rect.block (s := S128x1) S128x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4x128x3136.size a ≤ S32x128x3136.size a
  hwx1_3 : ∀ i : grid1.Coords, EltTy.bits .f32 = 32 ∨ (Rect.block (s := S32x128x3136) S4x128x3136.size (cc1_transform_3 i) (hinb1_3 i)).WholeWords (EltTy.packing .f32)

variable [Facts₀]

def dot_S128x576_S3136x576_S128x3136_1_1_0_0_n_n : DotDims S128x576 S3136x576 S128x3136 where
  lhsContracting := [1]
  rhsContracting := [1]
  lhsNonContracting := [0]
  rhsNonContracting := [0]
  lhsBatch := []
  rhsBatch := []
  wf := dot_S128x576_S3136x576_S128x3136_1_1_0_0_n_n_wf

abbrev win0_0 : Pipeline.Window sig grid0 :=
  Pipeline.Window.ofSpec (Memref.whole main_call0_v2) S4x58x58x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v6) S128x576.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v7_0) S4x128x3136.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v7_1) S1x128x2.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_call0_v7_0) S4x128x3136.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v25) S128x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v29) S128x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v30) S4x128x3136.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S32x64x56x56 : Shape := ⟨4, ![32, 64, 56, 56]⟩
abbrev S128x64x3x3 : Shape := ⟨4, ![128, 64, 3, 3]⟩
abbrev S128 : Shape := ⟨1, ![128]⟩
abbrev S32x56x56x64 : Shape := ⟨4, ![32, 56, 56, 64]⟩
abbrev S_ : Shape := ⟨0, ![]⟩
abbrev S32x58x58x64 : Shape := ⟨4, ![32, 58, 58, 64]⟩
abbrev S128x3x3x64 : Shape := ⟨4, ![128, 3, 3, 64]⟩
abbrev S128x576 : Shape := ⟨2, ![128, 576]⟩
abbrev S32x128x2 : Shape := ⟨3, ![32, 128, 2]⟩
abbrev S128x2 : Shape := ⟨2, ![128, 2]⟩
abbrev S128x1 : Shape := ⟨2, ![128, 1]⟩
abbrev S32x128x3136 : Shape := ⟨3, ![32, 128, 3136]⟩
abbrev S32x128x56x56 : Shape := ⟨4, ![32, 128, 56, 56]⟩
abbrev S1x58x58x64 : Shape := ⟨4, ![1, 58, 58, 64]⟩
abbrev S1x128x2 : Shape := ⟨3, ![1, 128, 2]⟩
abbrev S58x58x64 : Shape := ⟨3, ![58, 58, 64]⟩
abbrev S56x56x64 : Shape := ⟨3, ![56, 56, 64]⟩
abbrev S3136x64 : Shape := ⟨2, ![3136, 64]⟩
abbrev S3136x576 : Shape := ⟨2, ![3136, 576]⟩
abbrev S576x3136 : Shape := ⟨2, ![576, 3136]⟩
abbrev S128x3136 : Shape := ⟨2, ![128, 3136]⟩
abbrev S1x128x3136 : Shape := ⟨3, ![1, 128, 3136]⟩

abbrev nBuf : Space → Nat
  | .hbm => 45
  | .vmem => 12
  | .smem => 0
  | _ => 0

abbrev bufTy : (tb : Table) → Fin (tcTables nBuf tb) → BufTy
  | .hbm, ⟨0, _⟩ => ⟨S32x64x56x56, .f32⟩
  | .hbm, ⟨1, _⟩ => ⟨S128x64x3x3, .f32⟩
  | .hbm, ⟨2, _⟩ => ⟨S128, .f32⟩
  | .hbm, ⟨3, _⟩ => ⟨S128, .f32⟩
  | .hbm, ⟨4, _⟩ => ⟨S32x56x56x64, .f32⟩
  | .hbm, ⟨5, _⟩ => ⟨S_, .i32⟩
  | .hbm, ⟨6, _⟩ => ⟨S_, .f32⟩
  | .hbm, ⟨7, _⟩ => ⟨S32x58x58x64, .f32⟩
  | .hbm, ⟨8, _⟩ => ⟨S128x3x3x64, .f32⟩
  | .hbm, ⟨9, _⟩ => ⟨S128x576, .f32⟩
  | .hbm, ⟨10, _⟩ => ⟨S_, .i32⟩
  | .hbm, ⟨11, _⟩ => ⟨S_, .f32⟩
  | .hbm, ⟨12, _⟩ => ⟨S128x576, .f32⟩
  | .hbm, ⟨13, _⟩ => ⟨S32x128x2, .f32⟩
  | .hbm, ⟨14, _⟩ => ⟨S_, .f32⟩
  | .hbm, ⟨15, _⟩ => ⟨S128x2, .f32⟩
  | .hbm, ⟨16, _⟩ => ⟨S128x1, .f32⟩
  | .hbm, ⟨17, _⟩ => ⟨S128, .f32⟩
  | .hbm, ⟨18, _⟩ => ⟨S_, .f32⟩
  | .hbm, ⟨19, _⟩ => ⟨S128, .f32⟩
  | .hbm, ⟨20, _⟩ => ⟨S128, .f32⟩
  | .hbm, ⟨21, _⟩ => ⟨S128x1, .f32⟩
  | .hbm, ⟨22, _⟩ => ⟨S128, .f32⟩
  | .hbm, ⟨23, _⟩ => ⟨S_, .f32⟩
  | .hbm, ⟨24, _⟩ => ⟨S128, .f32⟩
  | .hbm, ⟨25, _⟩ => ⟨S128, .f32⟩
  | .hbm, ⟨26, _⟩ => ⟨S128, .f32⟩
  | .hbm, ⟨27, _⟩ => ⟨S128, .f32⟩
  | .hbm, ⟨28, _⟩ => ⟨S_, .i32⟩
  | .hbm, ⟨29, _⟩ => ⟨S_, .f32⟩
  | .hbm, ⟨30, _⟩ => ⟨S128, .f32⟩
  | .hbm, ⟨31, _⟩ => ⟨S_, .i32⟩
  | .hbm, ⟨32, _⟩ => ⟨S_, .f32⟩
  | .hbm, ⟨33, _⟩ => ⟨S128, .f32⟩
  | .hbm, ⟨34, _⟩ => ⟨S_, .f32⟩
  | .hbm, ⟨35, _⟩ => ⟨S128, .f32⟩
  | .hbm, ⟨36, _⟩ => ⟨S128, .f32⟩
  | .hbm, ⟨37, _⟩ => ⟨S128, .f32⟩
  | .hbm, ⟨38, _⟩ => ⟨S128, .f32⟩
  | .hbm, ⟨39, _⟩ => ⟨S128, .f32⟩
  | .hbm, ⟨40, _⟩ => ⟨S128, .f32⟩
  | .hbm, ⟨41, _⟩ => ⟨S128x1, .f32⟩
  | .hbm, ⟨42, _⟩ => ⟨S128x1, .f32⟩
  | .hbm, ⟨43, _⟩ => ⟨S32x128x3136, .f32⟩
  | .hbm, ⟨44, _⟩ => ⟨S32x128x56x56, .f32⟩
  | .local _ .vmem, ⟨0, _⟩ => ⟨S1x58x58x64, .f32⟩
  | .local _ .vmem, ⟨1, _⟩ => ⟨S1x58x58x64, .f32⟩
  | .local _ .vmem, ⟨2, _⟩ => ⟨S128x576, .f32⟩
  | .local _ .vmem, ⟨3, _⟩ => ⟨S1x128x2, .f32⟩
  | .local _ .vmem, ⟨4, _⟩ => ⟨S1x128x2, .f32⟩
  | .local _ .vmem, ⟨5, _⟩ => ⟨S1x58x58x64, .f32⟩
  | .local _ .vmem, ⟨6, _⟩ => ⟨S1x58x58x64, .f32⟩
  | .local _ .vmem, ⟨7, _⟩ => ⟨S128x576, .f32⟩
  | .local _ .vmem, ⟨8, _⟩ => ⟨S128x1, .f32⟩
  | .local _ .vmem, ⟨9, _⟩ => ⟨S128x1, .f32⟩
  | .local _ .vmem, ⟨10, _⟩ => ⟨S1x128x3136, .f32⟩
  | .local _ .vmem, ⟨11, _⟩ => ⟨S1x128x3136, .f32⟩
  | _, _ => ⟨S32x64x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_c : Ref sig .tc := ⟨.hbm, 5, rfl⟩
abbrev main_call0_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_c_0 : Ref sig .tc := ⟨.hbm, 10, rfl⟩
abbrev main_call0_call1_v0 : Ref sig .tc := ⟨.hbm, 11, rfl⟩
abbrev main_call0_v4 : Ref sig .tc := ⟨.hbm, 12, rfl⟩
abbrev main_call0_v5 : Ref sig .tc := ⟨.hbm, 13, rfl⟩
abbrev main_call0_cst : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_cst_1 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_v12 : Ref sig .tc := ⟨.hbm, 22, rfl⟩
abbrev main_call0_cst_2 : Ref sig .tc := ⟨.hbm, 23, rfl⟩
abbrev main_call0_v13 : Ref sig .tc := ⟨.hbm, 24, rfl⟩
abbrev main_call0_v14 : Ref sig .tc := ⟨.hbm, 25, rfl⟩
abbrev main_call0_v15 : Ref sig .tc := ⟨.hbm, 26, rfl⟩
abbrev main_call0_v16 : Ref sig .tc := ⟨.hbm, 27, rfl⟩
abbrev main_call0_c_3 : Ref sig .tc := ⟨.hbm, 28, rfl⟩
abbrev main_call0_call2_v0 : Ref sig .tc := ⟨.hbm, 29, rfl⟩
abbrev main_call0_v17 : Ref sig .tc := ⟨.hbm, 30, rfl⟩
abbrev main_call0_c_4 : Ref sig .tc := ⟨.hbm, 31, rfl⟩
abbrev main_call0_call3_v0 : Ref sig .tc := ⟨.hbm, 32, rfl⟩
abbrev main_call0_v18 : Ref sig .tc := ⟨.hbm, 33, rfl⟩
abbrev main_call0_cst_5 : Ref sig .tc := ⟨.hbm, 34, rfl⟩
abbrev main_call0_v19 : Ref sig .tc := ⟨.hbm, 35, rfl⟩
abbrev main_call0_v20 : Ref sig .tc := ⟨.hbm, 36, rfl⟩
abbrev main_call0_v21 : Ref sig .tc := ⟨.hbm, 37, rfl⟩
abbrev main_call0_v22 : Ref sig .tc := ⟨.hbm, 38, rfl⟩
abbrev main_call0_v23 : Ref sig .tc := ⟨.hbm, 39, rfl⟩
abbrev main_call0_v24 : Ref sig .tc := ⟨.hbm, 40, rfl⟩
abbrev main_call0_v25 : Ref sig .tc := ⟨.hbm, 41, rfl⟩
abbrev main_call0_v26 : Ref sig .tc := ⟨.hbm, 42, rfl⟩
abbrev main_call0_v27 : Ref sig .tc := ⟨.hbm, 43, rfl⟩
abbrev main_v0 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x58x58x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x576 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x128x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![32], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x58x58x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x576 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1x128x3136 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  transposes_S32x64x56x56_S32x56x56x64_0_2_3_1 : S32x64x56x56.Transposes [0, 2, 3, 1] S32x56x56x64
  pads_S32x56x56x64_S32x58x58x64_000_110_110_000 : S32x56x56x64.Pads (![0, 1, 1, 0] : Fin 4 → Nat) ![0, 1, 1, 0] ![0, 0, 0, 0] S32x58x58x64
  h_S_ : 0 < S_.numel
  transposes_S128x64x3x3_S128x3x3x64_0_2_3_1 : S128x64x3x3.Transposes [0, 2, 3, 1] S128x3x3x64
  shapeCasts_S128x3x3x64_S128x576 : S128x3x3x64.ShapeCasts S128x576
  pads_S128x576_S128x576_000_000 : S128x576.Pads (![0, 0] : Fin 2 → Nat) ![0, 0] ![0, 0] S128x576
  reducesTo_S32x128x2_S128x2_d0 : S32x128x2.ReducesTo [0] S128x2
  slices_S128x2_S128x1_0_0 : S128x2.Slices ![0, 0] S128x1
  shapeCasts_S128x1_S128 : S128x1.ShapeCasts S128
  bcast_S_S128 : S_.BroadcastsInDim S128 (![] : Fin 0 → Fin S128.rank)
  slices_S128x2_S128x1_0_1 : S128x2.Slices ![0, 1] S128x1
  pads_S128_S128_000 : S128.Pads (![0] : Fin 1 → Nat) ![0] ![0] S128
  shapeCasts_S128_S128x1 : S128.ShapeCasts S128x1
  shapeCasts_S32x128x3136_S32x128x56x56 : S32x128x3136.ShapeCasts S32x128x56x56
  inb_S1x58x58x64_S1x58x58x64_0_0_0_0 : ∀ a, (![0, 0, 0, 0] : Fin 4 → Nat) a + S1x58x58x64.size a ≤ S1x58x58x64.size a
  h_S1x58x58x64 : 0 < S1x58x58x64.numel
  shapeCasts_S1x58x58x64_S58x58x64 : S1x58x58x64.ShapeCasts S58x58x64
  slices_S58x58x64_o0_0_0_S56x56x64 : S58x58x64.Slices ![0, 0, 0] S56x56x64
  shapeCasts_S56x56x64_S3136x64 : S56x56x64.ShapeCasts S3136x64
  slices_S58x58x64_o0_1_0_S56x56x64 : S58x58x64.Slices ![0, 1, 0] S56x56x64
  slices_S58x58x64_o0_2_0_S56x56x64 : S58x58x64.Slices ![0, 2, 0] S56x56x64
  slices_S58x58x64_o1_0_0_S56x56x64 : S58x58x64.Slices ![1, 0, 0] S56x56x64
  slices_S58x58x64_o1_1_0_S56x56x64 : S58x58x64.Slices ![1, 1, 0] S56x56x64
  slices_S58x58x64_o1_2_0_S56x56x64 : S58x58x64.Slices ![1, 2, 0] S56x56x64
  slices_S58x58x64_o2_0_0_S56x56x64 : S58x58x64.Slices ![2, 0, 0] S56x56x64
  slices_S58x58x64_o2_1_0_S56x56x64 : S58x58x64.Slices ![2, 1, 0] S56x56x64
  slices_S58x58x64_o2_2_0_S56x56x64 : S58x58x64.Slices ![2, 2, 0] S56x56x64
  concatenates_S3136x64_S3136x64_S3136x64_S3136x64_S3136x64_S3136x64_S3136x64_S3136x64_S3136x64_S3136x576_d1 : Shape.Concatenates [S3136x64, S3136x64, S3136x64, S3136x64, S3136x64, S3136x64, S3136x64, S3136x64, S3136x64] S3136x576 1
  inb_S128x576_S128x576_0_0 : ∀ a, (![0, 0] : Fin 2 → Nat) a + S128x576.size a ≤ S128x576.size a
  h_S128x576 : 0 < S128x576.numel
  shapeCasts_S128x576_S128x576 : S128x576.ShapeCasts S128x576
  transposes_S3136x576_p1_0_S576x3136 : S3136x576.Transposes [1, 0] S576x3136
  reduces_S128x3136_S128 : S128x3136.Reduces [1] S128
  concatenates_S128x1_S128x1_S128x2_d1 : Shape.Concatenates [S128x1, S128x1] S128x2 1
  inb_S1x128x2_S1x128x2_0_0_0 : ∀ a, (![0, 0, 0] : Fin 3 → Nat) a + S1x128x2.size a ≤ S1x128x2.size a
  h_S1x128x2 : 0 < S1x128x2.numel
  shapeCasts_S1x128x2_S128x2 : S1x128x2.ShapeCasts S128x2
  shapeCasts_S128x2_S1x128x2 : S128x2.ShapeCasts S1x128x2
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x3136 : S128x1.Broadcasts S128x3136
  inb_S1x128x3136_S1x128x3136_0_0_0 : ∀ a, (![0, 0, 0] : Fin 3 → Nat) a + S1x128x3136.size a ≤ S1x128x3136.size a
  h_S1x128x3136 : 0 < S1x128x3136.numel
  shapeCasts_S1x128x3136_S128x3136 : S1x128x3136.ShapeCasts S128x3136
  shapeCasts_S128x3136_S1x128x3136 : S128x3136.ShapeCasts S1x128x3136
  dot_S128x576_S576x3136_S128x3136_1_0_0_1_n_n_wf : DotDims.WF S128x576 S576x3136 S128x3136 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x58x58x64.size a ≤ S32x58x58x64.size a
  hwx0_0 : ∀ i : grid0.Coords, EltTy.bits .f32 = 32 ∨ (Rect.block (s := S32x58x58x64) S1x58x58x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x576.size a ≤ S128x576.size a
  hwx0_1 : ∀ i : grid0.Coords, EltTy.bits .f32 = 32 ∨ (Rect.block (s := S128x576) S128x576.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x2.size a ≤ S32x128x2.size a
  hwx0_2 : ∀ i : grid0.Coords, EltTy.bits .f32 = 32 ∨ (Rect.block (s := S32x128x2) S1x128x2.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x58x58x64.size a ≤ S32x58x58x64.size a
  hwx1_0 : ∀ i : grid1.Coords, EltTy.bits .f32 = 32 ∨ (Rect.block (s := S32x58x58x64) S1x58x58x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x576.size a ≤ S128x576.size a
  hwx1_1 : ∀ i : grid1.Coords, EltTy.bits .f32 = 32 ∨ (Rect.block (s := S128x576) S128x576.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x1.size a ≤ S128x1.size a
  hwx1_2 : ∀ i : grid1.Coords, EltTy.bits .f32 = 32 ∨ (Rect.block (s := S128x1) S128x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x1.size a ≤ S128x1.size a
  hwx1_3 : ∀ i : grid1.Coords, EltTy.bits .f32 = 32 ∨ (Rect.block (s := S128x1) S128x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x128x3136.size a ≤ S32x128x3136.size a
  hwx1_4 : ∀ i : grid1.Coords, EltTy.bits .f32 = 32 ∨ (Rect.block (s := S32x128x3136) S1x128x3136.size (cc1_transform_4 i) (hinb1_4 i)).WholeWords (EltTy.packing .f32)

variable [Facts₀]

def dot_S128x576_S576x3136_S128x3136_1_0_0_1_n_n : DotDims S128x576 S576x3136 S128x3136 where
  lhsContracting := [1]
  rhsContracting := [0]
  lhsNonContracting := [0]
  rhsNonContracting := [1]
  lhsBatch := []
  rhsBatch := []
  wf := dot_S128x576_S576x3136_S128x3136_1_0_0_1_n_n_wf

abbrev win0_0 : Pipeline.Window sig grid0 :=
  Pipeline.Window.ofSpec (Memref.whole main_call0_v1) S1x58x58x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v4) S128x576.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v5) S1x128x2.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_call0_v1) S1x58x58x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v4) S128x576.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v25) S128x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v26) S128x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v27) S1x128x3136.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== Proof.KRun.lean ====
/-
  The whole run of the program read to its RESULT: every weakly fair execution terminates without a fault, the
  result array ends at the last boundary's contents (the fold of the host operations and of the two regions' write-backs
  from the launch memory), and the argument arrays end as launched.  The run is the one the frame is proved by; its last
  thread state holds every unscoped buffer at those contents, and the result is one of them.
-/
import proofs.«162054_g2000305547337643_pallasbulk_427_5_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run with the result named: `main_v0` ends at the last boundary's contents, the arguments as launched. -/
theorem run_result : θ_run defs (onTc (τ := τ) (main (F := F))) ⟨m, fun _ => 0, ρ⟩ (fun r => ∀ c : Dev nD,
      r.2.mem ((c.tc : Thread nD τ).loc main_v0) = W5 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v0 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c)⟩)

end Cert.KernelIdeal.Hand

end
-- ==== Proof.RRun.lean ====
/-
  The whole run of the program read to its RESULT: every weakly fair execution terminates without a fault, the
  result array ends at the last boundary's contents (the fold of the host operations and of the two regions' write-backs
  from the launch memory), and the argument arrays end as launched.  The run is the one the frame is proved by; its last
  thread state holds every unscoped buffer at those contents, and the result is one of them.
-/
import proofs.«162054_g2000305547337643_pallasbulk_427_5_alg».proof.Proof.Gen.ReferenceIdeal.Frame

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run with the result named: `main_v0` ends at the last boundary's contents, the arguments as launched. -/
theorem run_result : θ_run defs (onTc (τ := τ) (main (F := F))) ⟨m, fun _ => 0, ρ⟩ (fun r => ∀ c : Dev nD,
      r.2.mem ((c.tc : Thread nD τ).loc main_v0) = W5 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v0 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c)⟩)

end Cert.ReferenceIdeal.Hand

end
-- ==== Proof.KBoundary.lean ====
/-
  What the kernel program's buffers hold at the boundaries between its segments, read off the fold the run is stated
  over: the scale and shift vectors' inputs (gamma, beta) are the launch memory's when region 0 has ended; region 0's
  two output arrays are what its write-backs leave; the host operations between the regions do not touch the stored
  convolution; region 1's output array is what its write-backs leave.
-/
import proofs.«162054_g2000305547337643_pallasbulk_427_5_alg».proof.Proof.Gen.KernelIdeal.Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (m : (ℓ : Loc nD τ sig) → Buf (Elt F) ℓ) (ρ : Dev nD → PrngReg)

/-- `main_arg2` is still the launch memory's when region 0 has ended: no host operation before it and no window of the region
    writes it. -/
theorem W2_main_arg2 (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-- `main_arg3` is still the launch memory's when region 0 has ended: no host operation before it and no window of the region
    writes it. -/
theorem W2_main_arg3 (c : Dev nD) : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- The stored convolution after region 0 is what the region's write-backs leave in window 2's array. -/
theorem W2_conv (c : Dev nD) : W2 m ρ c (Proc.devRef .tc main_call0_v7_0) = (dat0 (V1 m ρ) c).arrAt 2 cfg0.N := W2_arr m ρ c 2

/-- The per-group statistics after region 0 are what the region's write-backs leave in window 3's array. -/
theorem W2_stats (c : Dev nD) : W2 m ρ c (Proc.devRef .tc main_call0_v7_1) = (dat0 (V1 m ρ) c).arrAt 3 cfg0.N := W2_arr m ρ c 3

/-- The host operations between the regions leave the stored convolution alone. -/
theorem W3_conv (c : Dev nD) : W3 m ρ c (Proc.devRef .tc main_call0_v7_0) = W2 m ρ c (Proc.devRef .tc main_call0_v7_0) :=
  StableHlo.after_of_forall_not_mem (b := Proc.devRef .tc main_call0_v7_0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- The output before the final reshape is what region 1's write-backs leave in window 3's array. -/
theorem W4_out (c : Dev nD) : W4 m ρ c (Proc.devRef .tc main_call0_v30) = (dat1 (V3 m ρ) c).arrAt 3 cfg1.N := W4_arr m ρ c 3

end Cert.KernelIdeal.Hand

end
-- ==== Proof.RBoundary.lean ====
/-
  What the reference program's buffers hold at the boundaries between its segments, read off the fold the run is
  stated over: gamma and beta are the launch memory's when region 0 has ended; region 0's output array (the per-image
  statistics) is what its write-backs leave; the padded images and the folded weights, which region 0 only reads, come
  out of it and of the host operations between the regions unchanged, so region 1 finds them as region 0 did; region
  1's output array is what its write-backs leave.
-/
import proofs.«162054_g2000305547337643_pallasbulk_427_5_alg».proof.Proof.Gen.ReferenceIdeal.Frame
import Idealize.ShloMosaic.Lib.Pipeline.Value

set_option maxRecDepth 16384

noncomputable section

namespace Cert.ReferenceIdeal.Hand

open Cert.ReferenceIdeal Cert.ReferenceIdeal.Gen
open Idealize.ShloMosaic Idealize.ShloMosaic.TcCoe Idealize.SL.Sem
open Idealize.ShloMosaic.Pipeline (Dat Cfg Window)

variable {F : FTy → Type} [FloatOps F]
variable (m : (ℓ : Loc nD τ sig) → Buf (Elt F) ℓ) (ρ : Dev nD → PrngReg)

/-- `main_arg2` is still the launch memory's when region 0 has ended: no host operation before it and no window of the region
    writes it. -/
theorem W2_main_arg2 (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-- `main_arg3` is still the launch memory's when region 0 has ended: no host operation before it and no window of the region
    writes it. -/
theorem W2_main_arg3 (c : Dev nD) : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- The per-image statistics after region 0 are what the region's write-backs leave in window 2's array. -/
theorem W2_stats (c : Dev nD) : W2 m ρ c (Proc.devRef .tc main_call0_v5) = (dat0 (V1 m ρ) c).arrAt 2 cfg0.N := W2_arr m ρ c 2

/-- Input window 0 of region 0 is never written back. -/
theorem noflush0_0 : ∀ t : Fin cfg0.N, (cfg0.win 0).flush t = false :=
  (by decide +kernel : ∀ t : Fin grid0.N, win0_0.flush t = false)

/-- So its array (the padded images) is, after the region's write-backs, what the region found. -/
theorem arrAt0_0 (V : (c : Dev nD) → (b : Ref sig .tc) → Buf (Elt F) ((c : Thread nD τ).loc b)) (c : Dev nD) :
    (dat0 V c).arrAt 0 cfg0.N = V c main_call0_v1 := by
  funext i
  rw [(dat0 V c).arrAt_apply_of_forall_not_mem 0 cfg0.N i
    (fun t _ hf => absurd hf (by rw [noflush0_0 t]; exact Bool.false_ne_true))]
  exact congrFun (A_eq0 V c 0) i

/-- Input window 1 of region 0 is never written back. -/
theorem noflush0_1 : ∀ t : Fin cfg0.N, (cfg0.win 1).flush t = false :=
  (by decide +kernel : ∀ t : Fin grid0.N, win0_1.flush t = false)

/-- So its array (the folded weights) is, after the region's write-backs, what the region found. -/
theorem arrAt0_1 (V : (c : Dev nD) → (b : Ref sig .tc) → Buf (Elt F) ((c : Thread nD τ).loc b)) (c : Dev nD) :
    (dat0 V c).arrAt 1 cfg0.N = V c main_call0_v4 := by
  funext i
  rw [(dat0 V c).arrAt_apply_of_forall_not_mem 1 cfg0.N i
    (fun t _ hf => absurd hf (by rw [noflush0_1 t]; exact Bool.false_ne_true))]
  exact congrFun (A_eq0 V c 1) i

/-- Region 1 finds the padded images as region 0 did. -/
theorem V3_xpad (c : Dev nD) : V3 m ρ c main_call0_v1 = V1 m ρ c main_call0_v1 :=
  calc W3 m ρ c (Proc.devRef .tc main_call0_v1)
    _ = W2 m ρ c (Proc.devRef .tc main_call0_v1) := StableHlo.after_of_forall_not_mem (b := Proc.devRef .tc main_call0_v1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (dat0 (V1 m ρ) c).arrAt 0 cfg0.N := W2_arr m ρ c 0
    _ = V1 m ρ c main_call0_v1 := arrAt0_0 (V1 m ρ) c

/-- Region 1 finds the folded weights as region 0 did. -/
theorem V3_wf (c : Dev nD) : V3 m ρ c main_call0_v4 = V1 m ρ c main_call0_v4 :=
  calc W3 m ρ c (Proc.devRef .tc main_call0_v4)
    _ = W2 m ρ c (Proc.devRef .tc main_call0_v4) := StableHlo.after_of_forall_not_mem (b := Proc.devRef .tc main_call0_v4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (dat0 (V1 m ρ) c).arrAt 1 cfg0.N := W2_arr m ρ c 1
    _ = V1 m ρ c main_call0_v4 := arrAt0_1 (V1 m ρ) c

/-- The output before the final reshape is what region 1's write-backs leave in window 4's array. -/
theorem W4_out (c : Dev nD) : W4 m ρ c (Proc.devRef .tc main_call0_v27) = (dat1 (V3 m ρ) c).arrAt 4 cfg1.N := W4_arr m ρ c 4

end Cert.ReferenceIdeal.Hand

end
-- ==== Proof.KPayloads.lean ====
/-
  The first region's body, re-read: one image's product is the same function of the loaded image and weights for each
  of the four images of a visit, although the printed text names the later images' products through other definitions.
  Stated for every float instance and closed by unfolding: each stored slab is the rounded product with a leading unit
  axis, and the statistics block is the two columns of the four images' row sums and row sums of squares, added in the
  images' order.  Nothing here opens the product itself.
-/
import proofs.«162054_g2000305547337643_pallasbulk_427_5_alg».proof.Proof.Gen.KernelIdeal.Frame

set_option maxRecDepth 16384

noncomputable section
namespace Cert.KernelIdeal.Hand
open Idealize.ShloMosaic Idealize.ShloMosaic.TcCoe Idealize.SL.Sem Cert.KernelIdeal Cert.KernelIdeal.Gen

variable {F : FTy → Type} [FloatOps F]

/-! ## One product, four spellings -/

/-- The fourth image's product is the first image's function. -/
theorem prod3_eq : @k0_pay21 F _ = k0_pay3 := rfl

/-- The second image's product, spelt through the parts of the patch matrix handed on, is the same function. -/
theorem prod1_eq (x : Vec F S1x58x58x64 .bf16) (w : Vec F S128x576 .bf16) :
    k0_pay12 (k0_pay7 x) (k0_pay8 x) (k0_pay9 x) (k0_pay10 x) (k0_pay11 x) w = k0_pay3 x w := rfl

/-- The third image's product, spelt through its patch matrix handed on, is the same function. -/
theorem prod2_eq (x : Vec F S1x58x58x64 .bf16) (w : Vec F S128x576 .bf16) :
    k0_pay17 (k0_pay16 x) w = k0_pay3 x w := rfl

/-! ## The stored slabs: the rounded product with a leading unit axis (`k0_pay1` of the product) -/

theorem slab0_eq (x : Vec F S1x58x58x64 .bf16) (w : Vec F S128x576 .bf16) : k0_pay6 x w = k0_pay1 (k0_pay3 x w) := rfl
theorem slab1_eq (x : Vec F S1x58x58x64 .bf16) (w : Vec F S128x576 .bf16) :
    k0_pay15 (k0_pay7 x) (k0_pay8 x) (k0_pay9 x) (k0_pay10 x) (k0_pay11 x) w = k0_pay1 (k0_pay3 x w) := rfl
theorem slab2_eq (x : Vec F S1x58x58x64 .bf16) (w : Vec F S128x576 .bf16) :
    k0_pay20 (k0_pay16 x) w = k0_pay1 (k0_pay3 x w) := rfl
theorem slab3_eq (x : Vec F S1x58x58x64 .bf16) (w : Vec F S128x576 .bf16) :
    k0_pay1 (k0_pay21 x w) = k0_pay1 (k0_pay3 x w) := rfl

/-- The output block after a visit: four slabs, image 3 stored last. -/
theorem out_conv_eq (x0 : Vec F S4x58x58x64 .bf16) (x1 : Vec F S128x576 .bf16) :
    out0_2 x0 x1 = View.canon [⟨r0_8, k0_pay1 (k0_pay3 (View.ld x0 r0_7) (View.ld x1 r0_1))⟩,
      ⟨r0_6, k0_pay1 (k0_pay3 (View.ld x0 r0_5) (View.ld x1 r0_1))⟩,
      ⟨r0_4, k0_pay1 (k0_pay3 (View.ld x0 r0_3) (View.ld x1 r0_1))⟩,
      ⟨r0_2, k0_pay1 (k0_pay3 (View.ld x0 r0_0) (View.ld x1 r0_1))⟩] := by
  unfold out0_2
  rw [prod3_eq, slab2_eq, slab1_eq, slab0_eq]

/-! ## The statistics block -/

/-- The row sums of a `[128, 3136]` array, kept as a column. -/
def rowSums (v : FVec F S128x3136 .f32) : FVec F S128x1 .f32 :=
  shapeCast S128x1 (multiReduction .add [1] S128 v 0x00000000#32 reduces_S128x3136_S128 (.inl rfl) rfl) shapeCasts_S128_S128x1

/-- The two statistics columns of four products, each added up in the images' order, side by side, with a leading unit
    axis. -/
def statBlock (p0 p1 p2 p3 : FVec F S128x3136 .f32) : FVec F S1x128x2 .f32 :=
  shapeCast S1x128x2
    (concatenate S128x2 1
      [⟨S128x1, addf (addf (addf (rowSums p0) (rowSums p1)) (rowSums p2)) (rowSums p3)⟩,
       ⟨S128x1, addf (addf (addf (rowSums (mulf p0 p0)) (rowSums (mulf p1 p1))) (rowSums (mulf p2 p2))) (rowSums (mulf p3 p3))⟩]
      concatenates_S128x1_S128x1_S128x2_d1)
    shapeCasts_S128x2_S1x128x2

theorem sum0_eq (x : Vec F S1x58x58x64 .bf16) (w : Vec F S128x576 .bf16) : k0_pay4 x w = rowSums (k0_pay3 x w) := rfl
theorem sq0_eq (x : Vec F S1x58x58x64 .bf16) (w : Vec F S128x576 .bf16) :
    k0_pay5 x w = rowSums (mulf (k0_pay3 x w) (k0_pay3 x w)) := rfl
theorem sum1_eq (a : FVec F S128x1 .f32) (x : Vec F S1x58x58x64 .bf16) (w : Vec F S128x576 .bf16) :
    k0_pay13 a (k0_pay7 x) (k0_pay8 x) (k0_pay9 x) (k0_pay10 x) (k0_pay11 x) w = addf a (rowSums (k0_pay3 x w)) := rfl
theorem sq1_eq (a : FVec F S128x1 .f32) (x : Vec F S1x58x58x64 .bf16) (w : Vec F S128x576 .bf16) :
    k0_pay14 a (k0_pay7 x) (k0_pay8 x) (k0_pay9 x) (k0_pay10 x) (k0_pay11 x) w
      = addf a (rowSums (mulf (k0_pay3 x w) (k0_pay3 x w))) := rfl
theorem sum2_eq (a : FVec F S128x1 .f32) (x : Vec F S1x58x58x64 .bf16) (w : Vec F S128x576 .bf16) :
    k0_pay18 a (k0_pay16 x) w = addf a (rowSums (k0_pay3 x w)) := rfl
theorem sq2_eq (a : FVec F S128x1 .f32) (x : Vec F S1x58x58x64 .bf16) (w : Vec F S128x576 .bf16) :
    k0_pay19 a (k0_pay16 x) w = addf a (rowSums (mulf (k0_pay3 x w) (k0_pay3 x w))) := rfl
theorem sum3_eq (x : Vec F S1x58x58x64 .bf16) (w : Vec F S128x576 .bf16) : k0_pay22 x w = rowSums (k0_pay3 x w) := rfl

/-- The last store's value from the running columns and the fourth image's two reductions. -/
theorem stat_store_eq (a b : FVec F S128x1 .f32) (x : Vec F S1x58x58x64 .bf16) (w : Vec F S128x576 .bf16) :
    k0_pay2 a b (k0_pay22 x w) (k0_pay23 x w)
      = shapeCast S1x128x2
          (concatenate S128x2 1
            [⟨S128x1, addf a (rowSums (k0_pay3 x w))⟩, ⟨S128x1, addf b (rowSums (mulf (k0_pay3 x w) (k0_pay3 x w)))⟩]
            concatenates_S128x1_S128x1_S128x2_d1)
          shapeCasts_S128x2_S1x128x2 := rfl

/-- The statistics block after a visit: one store of the four products' statistics. -/
theorem out_stats_eq (x0 : Vec F S4x58x58x64 .bf16) (x1 : Vec F S128x576 .bf16) :
    out0_3 x0 x1 = View.canon [⟨r0_9, statBlock (k0_pay3 (View.ld x0 r0_0) (View.ld x1 r0_1))
      (k0_pay3 (View.ld x0 r0_3) (View.ld x1 r0_1)) (k0_pay3 (View.ld x0 r0_5) (View.ld x1 r0_1))
      (k0_pay3 (View.ld x0 r0_7) (View.ld x1 r0_1))⟩] := by
  unfold out0_3
  rw [stat_store_eq, sum2_eq, sq2_eq, sum1_eq, sq1_eq, sum0_eq, sq0_eq]
  rfl

end Cert.KernelIdeal.Hand
end
-- ==== Proof.LibReduceLayout.lean ====
/-
  Sums and one more column form, read at an index given by coordinates, over the extended reals.
    * a sum along the second axis of an `[a, n]` array, read at row `p`, is the sum over `k` of the entries `(p, k)`;
    * a sum along the first axis of a column `[a, 1]`, read at its one index, is the sum over `p` of the entries `(p, 0)`;
    * a column `[a, 1]` transposed to the row `[1, a]` and repeated along a new first axis of extent `b` reads, at
      `(p, q)`, the column's entry in row `q`.
  General in the extents; stated over indices built from coordinates so that they apply by unification.  The proofs of
  the reductions' side conditions are variables, so that whatever proof a program's text carries unifies with them.
-/
import Idealize.ShloMosaic.Lib.ValueLayout
import Idealize.ShloMosaic.PureOps.Ideal.Laws

namespace Cert.Lib.ReduceLayout

open Idealize.ShloMosaic Idealize.ShloMosaic.ValueIdx

/-- A sum along the second axis, read at row `p`. -/
theorem sum_axis1_apply {a n : ℕ} (v : FVec Ideal ⟨2, ![a, n]⟩ .f32) (acc : BitVec 32)
    (h : (⟨2, ![a, n]⟩ : Shape).Reduces [1] ⟨1, ![a]⟩) (hφ : FKind.Formats .f32) (hacc : acc = FKind.add.neutral .f32 hφ)
    (p : Fin a) :
    multiReduction .add [1] ⟨1, ![a]⟩ v acc h hφ hacc (ix1 p) = ∑ k : Fin n, v (ix2 p k) := by
  refine (Ideal.multiReduction_add_single v acc h hφ hacc (ix1 p)).trans ?_
  refine Finset.sum_congr rfl fun k _ => congrArg v (funext fun d => ?_)
  match d with
  | ⟨0, _⟩ => rfl
  | ⟨1, _⟩ => rfl

/-- A sum along the first axis of a column, read at its one index. -/
theorem sum_axis0_col_apply {a : ℕ} (v : FVec Ideal ⟨2, ![a, 1]⟩ .f32) (acc : BitVec 32)
    (h : (⟨2, ![a, 1]⟩ : Shape).Reduces [0] ⟨1, ![1]⟩) (hφ : FKind.Formats .f32) (hacc : acc = FKind.add.neutral .f32 hφ)
    (y : (⟨1, ![1]⟩ : Shape).Idx) :
    multiReduction .add [0] ⟨1, ![1]⟩ v acc h hφ hacc y = ∑ p : Fin a, v (ix2 p (0 : Fin 1)) := by
  refine (Ideal.multiReduction_add_single v acc h hφ hacc y).trans ?_
  refine Finset.sum_congr rfl fun p _ => congrArg v (funext fun d => ?_)
  match d with
  | ⟨0, _⟩ => rfl
  | ⟨1, _⟩ =>
    have h1 : (h.lift y p (1 : Fin 2)).val < 1 := (h.lift y p (1 : Fin 2)).isLt
    exact Fin.ext (by show (h.lift y p (1 : Fin 2)).val = 0; omega)

variable {α : Type}

/-- A column turned into a row and repeated over `b` rows reads, at `(p, q)`, the column's entry in row `q`. -/
theorem broadcastTo_transpose_col_apply {a b : ℕ} (v : (⟨2, ![a, 1]⟩ : Shape).Idx → α)
    (ht : (⟨2, ![a, 1]⟩ : Shape).Transposes [1, 0] ⟨2, ![1, a]⟩) (hb : (⟨2, ![1, a]⟩ : Shape).Broadcasts ⟨2, ![b, a]⟩)
    (p : Fin b) (q : Fin a) :
    broadcastTo ⟨2, ![b, a]⟩ (transpose ⟨2, ![1, a]⟩ [1, 0] v ht) hb (ix2 p q) = v (ix2 q (0 : Fin 1)) :=
  (broadcastTo_1b_ab_apply _ hb p q).trans (transpose_ix2_apply v ht (0 : Fin 1) q)

end Cert.Lib.ReduceLayout
-- ==== Proof.LibMaxLayout.lean ====
/-
  The largest entry of a row, read at an index given by coordinates, over the extended reals: a maximum along the
  second axis of an `[a, n]` array, read at row `p`, is the fold of `max`, from the starting value, over the entries
  `(p, k)` of that row — for the vector unit's reduction (started from the value its accumulator word denotes) and for
  the host's one-operand reduction with a `max` body (started from its initial value's one element) alike.  Both are the
  library's single-axis readings with the inserted index named by its two coordinates.
  General in the extents; stated over indices built from coordinates so that they apply by unification.  The proofs of
  the reductions' side conditions are variables, so that whatever proof a program's text carries unifies with them.
-/
import Idealize.ShloMosaic.Lib.ValueIdx
import Idealize.ShloMosaic.PureOps.Ideal.Laws

namespace Cert.Lib.MaxLayout

open Idealize.ShloMosaic Idealize.ShloMosaic.ValueIdx

/-- The vector unit's maximum along the second axis, read at row `p`. -/
theorem max_axis1_apply {a n : ℕ} (v : FVec Ideal ⟨2, ![a, n]⟩ .f32) (acc : BitVec 32)
    (h : (⟨2, ![a, n]⟩ : Shape).Reduces [1] ⟨1, ![a]⟩) (hφ : FKind.Formats .f32) (hacc : acc = FKind.maximumf.neutral .f32 hφ)
    (p : Fin a) :
    multiReduction .maximumf [1] ⟨1, ![a]⟩ v acc h hφ hacc (ix1 p)
      = (Finset.univ : Finset (Fin n)).fold max (Ideal.ofBits .f32 acc) fun k => v (ix2 p k) := by
  refine (Ideal.multiReduction_maximumf_single v acc h hφ hacc (ix1 p)).trans ?_
  refine congrArg (fun f => (Finset.univ : Finset (Fin n)).fold max (Ideal.ofBits .f32 acc) f) (funext fun k => congrArg v (funext fun d => ?_))
  match d with
  | ⟨0, _⟩ => rfl
  | ⟨1, _⟩ => rfl

/-- The host's maximum along the second axis, read at row `p`: the fold starts from the initial value's element. -/
theorem hostMax_axis1_apply {a n : ℕ} {u : Shape} (x : (⟨2, ![a, n]⟩ : Shape).Idx → EReal) (init : u.Idx → EReal)
    (h' : (⟨2, ![a, n]⟩ : Shape).ReducesTo [1] ⟨1, ![a]⟩) (h : (⟨2, ![a, n]⟩ : Shape).Reduces [1] ⟨1, ![a]⟩)
    (hu : 0 < u.numel) (p : Fin a) :
    Host.reduce (FloatOps.maximumf (F := Ideal) (φ := .f32)) x init h' hu (ix1 p)
      = (Finset.univ : Finset (Fin n)).fold max (init (Shape.Idx.first hu)) fun k => x (ix2 p k) := by
  refine (Host.reduce_eq_fold_single (FloatOps.maximumf (F := Ideal) (φ := .f32)) x init h' h hu (ix1 p)).trans ?_
  refine congrArg (fun f => (Finset.univ : Finset (Fin n)).fold max (init (Shape.Idx.first hu)) f) (funext fun k => congrArg x (funext fun d => ?_))
  match d with
  | ⟨0, _⟩ => rfl
  | ⟨1, _⟩ => rfl

end Cert.Lib.MaxLayout
-- ==== Proof.LibColumnLayout.lean ====
/-
  Two layout operations read at an index given by coordinates: the column forms a `keepdims` row reduction meets.
  A vector of `a` row values becomes an `[a, 1]` column by a shape cast, and that column is repeated along a new
  second axis of extent `b` by a broadcast; read at `(i, j)` the result is the vector's value at `i`, whatever `j`.
  General in the extents; stated over indices built from coordinates so that they apply by unification.
-/
import Idealize.ShloMosaic.Lib.ValueLayout

namespace Cert.Lib.ColumnLayout

open Idealize.ShloMosaic Idealize.ShloMosaic.ValueIdx

variable {α : Type}

/-- An `[a]` array cast to the column `[a, 1]` reads, at `(i, u)`, the operand at `i`, whatever the unit coordinate `u`:
    both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`: the unit axis is read at `0`,
    the row axis at `p` (when `a` is itself `1` the row coordinate is `0` either way). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.ColumnLayout
-- ==== Proof.LibRowLit.lean ====
/-
  Row reductions and the column they are kept in, read at an index given by coordinates, in the spelling a kernel
  body's text carries: the accumulator a literal word and the side conditions the literal proofs `(.inl rfl) rfl`.
    * a sum along the second axis of an `[a, n]` array from the zero word, read at row `p`, is the sum over `k` of the
      entries `(p, k)`;
    * a maximum along the second axis from the word of minus infinity, read at row `p`, is the fold of `max`, from the
      value that word denotes, over the entries `(p, k)`;
    * a vector of `a` row values cast to an `[a, 1]` column and repeated over `[a, n]` reads, at `(p, k)`, the value at `p`.
  General in the extents.  Stated with the proofs spelt as a printed body spells them, so that they rewrite inside an
  unfolded body, where a statement over a hypothesis `acc = neutral` does not match.
-/
import proofs.«162054_g2000305547337643_pallasbulk_427_5_alg».proof.Proof.LibReduceLayout
import proofs.«162054_g2000305547337643_pallasbulk_427_5_alg».proof.Proof.LibMaxLayout
import proofs.«162054_g2000305547337643_pallasbulk_427_5_alg».proof.Proof.LibColumnLayout

namespace Cert.Lib.RowLit

open Idealize.ShloMosaic Idealize.ShloMosaic.ValueIdx

/-- A sum along the second axis from the zero word, read at row `p`. -/
theorem rowSum_lit {a n : ℕ} (v : FVec Ideal ⟨2, ![a, n]⟩ .f32) (h : (⟨2, ![a, n]⟩ : Shape).Reduces [1] ⟨1, ![a]⟩) (p : Fin a) :
    multiReduction .add [1] ⟨1, ![a]⟩ v 0x00000000#32 h (.inl rfl) rfl (ix1 p) = ∑ k : Fin n, v (ix2 p k) :=
  Cert.Lib.ReduceLayout.sum_axis1_apply v _ h _ _ p

/-- A maximum along the second axis from the word of minus infinity, read at row `p`. -/
theorem rowMax_lit {a n : ℕ} (v : FVec Ideal ⟨2, ![a, n]⟩ .f32) (h : (⟨2, ![a, n]⟩ : Shape).Reduces [1] ⟨1, ![a]⟩) (p : Fin a) :
    multiReduction .maximumf [1] ⟨1, ![a]⟩ v 0xFF800000#32 h (.inl rfl) rfl (ix1 p)
      = (Finset.univ : Finset (Fin n)).fold max (Ideal.ofBits .f32 0xFF800000#32) fun k => v (ix2 p k) :=
  Cert.Lib.MaxLayout.max_axis1_apply v _ h _ _ p

variable {α : Type}

/-- A vector of row values kept as a column and repeated along the second axis reads, at `(p, k)`, the value at `p`. -/
theorem column_apply {a n : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, n]⟩) (p : Fin a) (k : Fin n) :
    broadcastTo ⟨2, ![a, n]⟩ (shapeCast ⟨2, ![a, 1]⟩ x h₁) h₂ (ix2 p k) = x (ix1 p) :=
  (Cert.Lib.ColumnLayout.broadcastTo_a1_ab_apply _ h₂ p k).trans (Cert.Lib.ColumnLayout.shapeCast_a_a1_apply x h₁ p 0)

end Cert.Lib.RowLit
-- ==== Proof.Spec.lean ====
/-
  The mathematics both programs compute, stated once over the extended reals.

  A padded image stack `xp : [32, 58, 58, 64]` and folded weights `wf : [128, 576]` give, per image `n`, a
  convolution `cv (img xp n) wf : [128, 3136]` (output channel by output pixel).  From it: the stacked convolution
  `convAll`, the per-image statistics (row sums of the convolution and of its squares) `statsEach`, the same
  statistics added up four consecutive images at a time `statsGrouped`, and the affine map `affine` applied channel by
  channel.  `cv` is a parameter: each program's own convolution of one image is put in its place.
-/
import Idealize.ShloMosaic.PureOps.Ideal
import Idealize.ShloMosaic.Lib.ValueIdx

noncomputable section

open scoped BigOperators

namespace Cert.Spec

open Idealize.ShloMosaic Idealize.ShloMosaic.ValueIdx

/-- The padded images, one image with its leading axis of extent one, the folded weights, one image's convolution,
    the stacked outputs, a column of per-channel coefficients. -/
abbrev SX : Shape := ⟨4, ![32, 58, 58, 64]⟩
abbrev SI : Shape := ⟨4, ![1, 58, 58, 64]⟩
abbrev SW : Shape := ⟨2, ![128, 576]⟩
abbrev SC : Shape := ⟨2, ![128, 3136]⟩
abbrev SO : Shape := ⟨3, ![32, 128, 3136]⟩
abbrev SCol : Shape := ⟨2, ![128, 1]⟩
abbrev SStatEach : Shape := ⟨3, ![32, 128, 2]⟩
abbrev SStatGrp : Shape := ⟨3, ![8, 128, 2]⟩

/-- One image's convolution as a function of the image and the weights. -/
abbrev Conv : Type := (SI.Idx → EReal) → (SW.Idx → EReal) → SC.Idx → EReal

/-- Image `n` of the stack, keeping a leading axis of extent one. -/
def img (xp : SX.Idx → EReal) (n : Fin 32) : SI.Idx → EReal := fun y => xp (ix4 n (y 1) (y 2) (y 3))

/-- Every image's convolution, stacked: entry `(n, c, p)` is image `n`'s convolution at `(c, p)`. -/
def convAll (cv : Conv) (xp : SX.Idx → EReal) (wf : SW.Idx → EReal) : SO.Idx → EReal :=
  fun j => cv (img xp (j 0)) wf (ix2 (j 1) (j 2))

/-- Column `k` of one image's statistics for channel `c`: the sum over the pixels of the convolution (`k = 0`) or of
    its square (`k = 1`). -/
def stat (v : SC.Idx → EReal) (c : Fin 128) (k : Fin 2) : EReal :=
  if k.val = 0 then ∑ p : Fin 3136, v (ix2 c p) else ∑ p : Fin 3136, v (ix2 c p) * v (ix2 c p)

/-- The statistics of every image. -/
def statsEach (cv : Conv) (xp : SX.Idx → EReal) (wf : SW.Idx → EReal) : SStatEach.Idx → EReal :=
  fun j => stat (cv (img xp (j 0)) wf) (j 1) (j 2)

/-- Image `i` of group `g` when the 32 images are taken four at a time. -/
def imgOf (g : Fin 8) (i : Fin 4) : Fin 32 := ⟨4 * g.val + i.val, by omega⟩

/-- The statistics added up over each group of four consecutive images, in the order the images come. -/
def statsGrouped (cv : Conv) (xp : SX.Idx → EReal) (wf : SW.Idx → EReal) : SStatGrp.Idx → EReal :=
  fun j => ((stat (cv (img xp (imgOf (j 0) 0)) wf) (j 1) (j 2) + stat (cv (img xp (imgOf (j 0) 1)) wf) (j 1) (j 2))
    + stat (cv (img xp (imgOf (j 0) 2)) wf) (j 1) (j 2)) + stat (cv (img xp (imgOf (j 0) 3)) wf) (j 1) (j 2)

/-- Scale and shift, channel by channel: entry `(n, c, p)` is `conv (n, c, p) * sc (c, 0) + sh (c, 0)`. -/
def affine (conv : SO.Idx → EReal) (sc sh : SCol.Idx → EReal) : SO.Idx → EReal :=
  fun j => conv j * sc (ix2 (j 1) 0) + sh (ix2 (j 1) 0)

end Cert.Spec

end
-- ==== Proof.KReads.lean ====
/-
  The first region's stored values read at an index, over the extended reals, with one image's product kept as a
  closed function: a stored slab at `(0, ch, p)` is the product's entry `(ch, p)`; the four slabs of a visit together are
  one function of the visit's four loaded images; the statistics block at `(0, ch, k)` is the four products' row sums
  (`k = 0`) or row sums of squares (`k = 1`) for channel `ch`, added in the images' order.
-/
import proofs.«162054_g2000305547337643_pallasbulk_427_5_alg».proof.Proof.KPayloads
import proofs.«162054_g2000305547337643_pallasbulk_427_5_alg».proof.Proof.LibRowLit
import proofs.«162054_g2000305547337643_pallasbulk_427_5_alg».proof.Proof.Spec
import Idealize.ShloMosaic.Lib.Pipeline.Value
import Idealize.ShloMosaic.Lib.ValueIdx

set_option maxRecDepth 16384

noncomputable section
namespace Cert.KernelIdeal.Hand
open Idealize.ShloMosaic Idealize.ShloMosaic.TcCoe Idealize.ShloMosaic.ValueIdx Idealize.SL.Sem Cert.KernelIdeal Cert.KernelIdeal.Gen

/-- The zero offsets of a rank-3 and of a rank-2 rectangle, as constant functions. -/
theorem zero_offsets3 : (![0, 0, 0] : Fin 3 → Nat) = fun _ => 0 :=
  funext fun a => by match a with | ⟨0, _⟩ => rfl | ⟨1, _⟩ => rfl | ⟨2, _⟩ => rfl
theorem zero_offsets2 : (![0, 0] : Fin 2 → Nat) = fun _ => 0 :=
  funext fun a => by match a with | ⟨0, _⟩ => rfl | ⟨1, _⟩ => rfl

/-- The weights are loaded whole. -/
theorem weights_load (x1 : Vec Ideal S128x576 .bf16) : View.ld x1 r0_1 = x1 :=
  View.ld_unit_zero zero_offsets2 _ x1

/-! ## The convolution slabs -/

/-- The four images of a visit, each convolved: entry `(i, ch, p)` is the product of image `i` of the loaded block
    with the loaded weights, at `(ch, p)`. -/
def blockConv (x0 : Vec Ideal S4x58x58x64 .bf16) (x1 : Vec Ideal S128x576 .bf16) : Vec Ideal S4x128x3136 .bf16 :=
  fun y => k0_pay3 (F := Ideal) (fun z => x0 (ix4 (y 0) (z 1) (z 2) (z 3))) x1 (ix2 (y 1) (y 2))

/-- A product stored with a leading unit axis reads, at `(0, ch, p)`, the product's entry `(ch, p)`. -/
theorem slab_of_product (v : FVec Ideal S128x3136 .f32) (x : S1x128x3136.Idx) :
    k0_pay1 (F := Ideal) v x = v (ix2 (x 1) (x 2)) := by
  unfold k0_pay1
  refine (shapeCast_addUnit_apply (n := 2) ![128, 3136] _ _ x).trans ?_
  show v (fun a : Fin 2 => x a.succ) = v (ix2 (x 1) (x 2))
  refine congrArg v (funext fun a => ?_)
  match a with
  | ⟨0, _⟩ => rfl
  | ⟨1, _⟩ => rfl

/-- A stored slab, read at an index of its own: the product of the image loaded at offset `n` along the first axis, at
    the index's channel and pixel — which is `blockConv` at the slab's place in the block. -/
theorem slab_apply (x0 : Vec Ideal S4x58x58x64 .bf16) (x1 : Vec Ideal S128x576 .bf16) (n : ℕ)
    (inbI : ∀ a, (![n, 0, 0, 0] : Fin 4 → Nat) a + S1x58x58x64.size a ≤ S4x58x58x64.size a)
    (inbO : ∀ a, (![n, 0, 0] : Fin 3 → Nat) a + S1x128x3136.size a ≤ S4x128x3136.size a)
    (x : S1x128x3136.Idx) :
    k0_pay1 (F := Ideal) (k0_pay3 (F := Ideal) (View.ld x0 (Rect.unit (s := S4x58x58x64) ![n, 0, 0, 0] S1x58x58x64.size inbI)) (View.ld x1 r0_1)) x
      = blockConv x0 x1 ((Rect.unit (s := S4x128x3136) ![n, 0, 0] S1x128x3136.size inbO).emb x) := by
  have hx0 : (x 0).val < 1 := (x 0).isLt
  refine (slab_of_product _ x).trans ?_
  unfold blockConv
  rw [weights_load]
  refine congr (congrArg (fun A => k0_pay3 (F := Ideal) A x1) (funext fun z => congrArg x0 (funext fun a => Fin.ext ?_)))
    (funext fun a => Fin.ext ?_)
  · have hz0 : (z 0).val < 1 := (z 0).isLt
    match a with
    | ⟨0, _⟩ => show n + 1 * (z 0).val = n + 1 * (x 0).val; omega
    | ⟨1, _⟩ => show 0 + 1 * (z 1).val = (z 1).val; omega
    | ⟨2, _⟩ => show 0 + 1 * (z 2).val = (z 2).val; omega
    | ⟨3, _⟩ => show 0 + 1 * (z 3).val = (z 3).val; omega
  · match a with
    | ⟨0, _⟩ => show (x 1).val = 0 + 1 * (x 1).val; omega
    | ⟨1, _⟩ => show (x 2).val = 0 + 1 * (x 2).val; omega

/-- The four slabs of a visit, read back as one block, are `blockConv` of the loaded block and weights. -/
theorem out_conv_apply (x0 : Vec Ideal S4x58x58x64 .bf16) (x1 : Vec Ideal S128x576 .bf16) (y : S4x128x3136.Idx) :
    out0_2 (F := Ideal) x0 x1 y = blockConv x0 x1 y := by
  rw [out_conv_eq]
  refine View.canon_apply_of_pieces (Val := Elt Ideal) (e := .bf16) (blockConv x0 x1) _ ?_ y (cover0_2 _ _ _ _ y)
  intro p hp x
  rcases List.mem_cons.mp hp with rfl | hp
  · exact slab_apply x0 x1 3 inb_S4x58x58x64_S1x58x58x64_3_0_0_0 inb_S4x128x3136_S1x128x3136_3_0_0 x
  rcases List.mem_cons.mp hp with rfl | hp
  · exact slab_apply x0 x1 2 inb_S4x58x58x64_S1x58x58x64_2_0_0_0 inb_S4x128x3136_S1x128x3136_2_0_0 x
  rcases List.mem_cons.mp hp with rfl | hp
  · exact slab_apply x0 x1 1 inb_S4x58x58x64_S1x58x58x64_1_0_0_0 inb_S4x128x3136_S1x128x3136_1_0_0 x
  rcases List.mem_cons.mp hp with rfl | hp
  · exact slab_apply x0 x1 0 inb_S4x58x58x64_S1x58x58x64_0_0_0_0 inb_S4x128x3136_S1x128x3136_0_0_0 x
  · exact absurd hp List.not_mem_nil

/-- `blockConv` against the stacked convolutions of a whole array: when image `y 0` of the block is image `i 0` of the
    array, the weights are the array's, and the channel and pixel agree. -/
theorem blockConv_eq (xp : Cert.Spec.SX.Idx → EReal) (wf : Cert.Spec.SW.Idx → EReal)
    (x0 : Vec Ideal S4x58x58x64 .bf16) (x1 : Vec Ideal S128x576 .bf16) (y : S4x128x3136.Idx) (i : Cert.Spec.SO.Idx)
    (h0 : ∀ z : S1x58x58x64.Idx, x0 (ix4 (y 0) (z 1) (z 2) (z 3)) = xp (ix4 (i 0) (z 1) (z 2) (z 3)))
    (h1 : x1 = wf) (h2 : (ix2 (y 1) (y 2) : S128x3136.Idx) = ix2 (i 1) (i 2)) :
    blockConv x0 x1 y = Cert.Spec.convAll (k0_pay3 (F := Ideal)) xp wf i := by
  subst h1
  unfold blockConv Cert.Spec.convAll Cert.Spec.img
  exact congr (congrArg (fun A => k0_pay3 (F := Ideal) A x1) (funext h0)) h2

/-! ## The statistics block -/

/-- A product's row sums, kept as a column, read at channel `ch`. -/
theorem rowSums_apply (v : FVec Ideal S128x3136 .f32) (ch : Fin 128) (u : Fin 1) :
    rowSums (F := Ideal) v (ix2 ch u) = ∑ p : Fin 3136, v (ix2 ch p) := by
  unfold rowSums
  exact (Cert.Lib.ColumnLayout.shapeCast_a_a1_apply _ _ ch u).trans (Cert.Lib.RowLit.rowSum_lit (a := 128) (n := 3136) v _ ch)

/-- The two columns of one product's statistics: the row sums, and the row sums of squares. -/
theorem stat_sum (v : FVec Ideal S128x3136 .f32) (ch : Fin 128) (k : Fin 2) (hk : k.val = 0) :
    Cert.Spec.stat v ch k = ∑ p : Fin 3136, v (ix2 ch p) := by
  unfold Cert.Spec.stat; rw [if_pos hk]
theorem stat_sq (v : FVec Ideal S128x3136 .f32) (ch : Fin 128) (k : Fin 2) (hk : ¬k.val = 0) :
    Cert.Spec.stat v ch k = ∑ p : Fin 3136, (mulf v v : FVec Ideal S128x3136 .f32) (ix2 ch p) := by
  unfold Cert.Spec.stat; rw [if_neg hk]; rfl

/-- The statistics block at an index: the four products' statistics for the index's channel and column, added in order. -/
theorem statBlock_apply (p0 p1 p2 p3 : FVec Ideal S128x3136 .f32) (y : S1x128x2.Idx) :
    statBlock (F := Ideal) p0 p1 p2 p3 y
      = ((Cert.Spec.stat p0 (y 1) (y 2) + Cert.Spec.stat p1 (y 1) (y 2)) + Cert.Spec.stat p2 (y 1) (y 2))
          + Cert.Spec.stat p3 (y 1) (y 2) := by
  have hy2 : (y 2).val < 2 := (y 2).isLt
  unfold statBlock
  refine (shapeCast_addUnit_apply (n := 2) ![128, 2] _ _ y).trans ?_
  by_cases hk : (y 2).val = 0
  · refine (concatenate_pair_apply_left (t := S128x2) (s₁ := S128x1) (s₂ := S128x1) (1 : Fin 2) _ _ _ _ rfl
      (ix2 (y 1) (0 : Fin 1)) fun b => ?_).trans ?_
    · match b with
      | ⟨0, _⟩ => rfl
      | ⟨1, _⟩ => exact hk.symm
    · have E0 := (rowSums_apply p0 (y 1) 0).trans (stat_sum p0 (y 1) (y 2) hk).symm
      have E1 := (rowSums_apply p1 (y 1) 0).trans (stat_sum p1 (y 1) (y 2) hk).symm
      have E2 := (rowSums_apply p2 (y 1) 0).trans (stat_sum p2 (y 1) (y 2) hk).symm
      have E3 := (rowSums_apply p3 (y 1) 0).trans (stat_sum p3 (y 1) (y 2) hk).symm
      rw [addf_apply, addf_apply, addf_apply]
      exact congr (congrArg HAdd.hAdd (congr (congrArg HAdd.hAdd (congr (congrArg HAdd.hAdd E0) E1)) E2)) E3
  · have hk1 : (y 2).val = 1 := by omega
    refine (concatenate_pair_apply_right (t := S128x2) (s₁ := S128x1) (s₂ := S128x1) (1 : Fin 2) _ _ _ _ rfl rfl
      (ix2 (y 1) (0 : Fin 1)) (fun b hb => ?_) ?_).trans ?_
    · match b with
      | ⟨0, _⟩ => rfl
      | ⟨1, _⟩ => exact absurd rfl hb
    · show 0 + 1 = (y 2).val; omega
    · have E0 := (rowSums_apply (mulf p0 p0) (y 1) 0).trans (stat_sq p0 (y 1) (y 2) hk).symm
      have E1 := (rowSums_apply (mulf p1 p1) (y 1) 0).trans (stat_sq p1 (y 1) (y 2) hk).symm
      have E2 := (rowSums_apply (mulf p2 p2) (y 1) 0).trans (stat_sq p2 (y 1) (y 2) hk).symm
      have E3 := (rowSums_apply (mulf p3 p3) (y 1) 0).trans (stat_sq p3 (y 1) (y 2) hk).symm
      rw [addf_apply, addf_apply, addf_apply]
      exact congr (congrArg HAdd.hAdd (congr (congrArg HAdd.hAdd (congr (congrArg HAdd.hAdd E0) E1)) E2)) E3

/-- The statistics block a visit leaves, at an index: the statistics of the products of the four loaded images. -/
theorem out_stats_apply (x0 : Vec Ideal S4x58x58x64 .bf16) (x1 : Vec Ideal S128x576 .bf16) (y : S1x128x2.Idx) :
    out0_3 (F := Ideal) x0 x1 y
      = ((Cert.Spec.stat (k0_pay3 (F := Ideal) (View.ld x0 r0_0) x1) (y 1) (y 2)
          + Cert.Spec.stat (k0_pay3 (F := Ideal) (View.ld x0 r0_3) x1) (y 1) (y 2))
          + Cert.Spec.stat (k0_pay3 (F := Ideal) (View.ld x0 r0_5) x1) (y 1) (y 2))
          + Cert.Spec.stat (k0_pay3 (F := Ideal) (View.ld x0 r0_7) x1) (y 1) (y 2) := by
  rw [out_stats_eq, View.canon_unit_zero zero_offsets3, statBlock_apply, weights_load]

/-- The same against the grouped statistics of a whole array: when the four loaded images are the four images of group
    `g` and the weights are the array's. -/
theorem grouped_eq (xp : Cert.Spec.SX.Idx → EReal) (wf : Cert.Spec.SW.Idx → EReal)
    (x0 : Vec Ideal S4x58x58x64 .bf16) (x1 : Vec Ideal S128x576 .bf16) (y : S1x128x2.Idx) (g : Fin 8)
    (h0 : View.ld x0 r0_0 = Cert.Spec.img xp (Cert.Spec.imgOf g 0)) (h3 : View.ld x0 r0_3 = Cert.Spec.img xp (Cert.Spec.imgOf g 1))
    (h5 : View.ld x0 r0_5 = Cert.Spec.img xp (Cert.Spec.imgOf g 2)) (h7 : View.ld x0 r0_7 = Cert.Spec.img xp (Cert.Spec.imgOf g 3))
    (h1 : x1 = wf) :
    out0_3 (F := Ideal) x0 x1 y = Cert.Spec.statsGrouped (k0_pay3 (F := Ideal)) xp wf (ix3 g (y 1) (y 2)) := by
  subst h1
  rw [out_stats_apply, h0, h3, h5, h7]
  rfl

end Cert.KernelIdeal.Hand
end
-- ==== Proof.KRegion0.lean ====
/-
  The first region read as two functions of what it finds.  The region visits eight groups of four padded images with
  the whole folded weights; each visit stores the four images' products as four slabs of the stacked output and, in
  its own row of the statistics array, the row sums and row sums of squares of the four products added in the images'
  order.  With one image's product kept as a closed function, the stacked output is every image's product, and the
  statistics array is the per-group statistics.
-/
import proofs.«162054_g2000305547337643_pallasbulk_427_5_alg».proof.Proof.KReads

set_option maxRecDepth 16384

noncomputable section
namespace Cert.KernelIdeal.Hand
open Idealize.ShloMosaic Idealize.ShloMosaic.TcCoe Idealize.ShloMosaic.ValueIdx Idealize.SL.Sem Cert.KernelIdeal Cert.KernelIdeal.Gen

variable (V : (c : Dev nD) → (b : Ref sig .tc) → Buf (Elt Ideal) ((c : Thread nD τ).loc b))

/-- Where each window's block sits at a visit, decided over the eight visits: the image window, the stacked output and
    the statistics array at the visit's own group, the weights whole. -/
theorem conv_index_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

/-- The weights window's block is the whole weights array at every visit. -/
theorem weights_block (c : Dev nD) (t : Fin cfg0.N) :
    (iblk0 V c 1 t : Vec Ideal S128x576 .bf16) = V c main_call0_v6 := by
  obtain ⟨-, -, -, -, b0, b1, -, -, -, -, -, -⟩ := conv_index_facts t
  funext y
  show V c main_call0_v6 (((cfg0.win 1).blk t).view.emb y) = V c main_call0_v6 y
  refine congrArg _ (funext fun a => Fin.ext ?_)
  match a with
  | ⟨0, _⟩ => show win0_1.index t (0 : Fin 2) * 128 + 1 * (y 0).val = (y 0).val; omega
  | ⟨1, _⟩ => show win0_1.index t (1 : Fin 2) * 576 + 1 * (y 1).val = (y 1).val; omega

/-! ## The stacked convolutions -/

/-- What a visit writes back to the stacked output is its block of every image's product. -/
theorem conv_block (c : Dev nD) (t : Fin cfg0.N) :
    (dat0 (F := Ideal) V c).flushed 2 t
      = ((cfg0.win 2).blk t).view.read (Elt Ideal)
          (Cert.Spec.convAll (k0_pay3 (F := Ideal)) (V c main_call0_v2) (V c main_call0_v6)) := by
  show (cfg0.win 2).cut (grid0.coords t) ((dat0 (F := Ideal) V c).after 2 t) = _
  rw [after0_2]
  obtain ⟨a0, a1, a2, a3, -, -, d0, d1, d2, -, -, -⟩ := conv_index_facts t
  funext j
  show out0_2 (F := Ideal) (iblk0 V c 0 t) (iblk0 V c 1 t) j
      = Cert.Spec.convAll (k0_pay3 (F := Ideal)) (V c main_call0_v2) (V c main_call0_v6) (((cfg0.win 2).blk t).view.emb j)
  refine (out_conv_apply _ _ _).trans ?_
  refine blockConv_eq _ _ _ _ _ _ (fun z => ?_) (weights_block V c t) (funext fun a => Fin.ext ?_)
  · show V c main_call0_v2 (((cfg0.win 0).blk t).view.emb (ix4 (j 0) (z 1) (z 2) (z 3)))
        = V c main_call0_v2 (ix4 ((((cfg0.win 2).blk t).view.emb j) 0) (z 1) (z 2) (z 3))
    refine congrArg _ (funext fun a => Fin.ext ?_)
    match a with
    | ⟨0, _⟩ => show win0_0.index t (0 : Fin 4) * 4 + 1 * (j 0).val = win0_2.index t (0 : Fin 3) * 4 + 1 * (j 0).val; omega
    | ⟨1, _⟩ => show win0_0.index t (1 : Fin 4) * 58 + 1 * (z 1).val = (z 1).val; omega
    | ⟨2, _⟩ => show win0_0.index t (2 : Fin 4) * 58 + 1 * (z 2).val = (z 2).val; omega
    | ⟨3, _⟩ => show win0_0.index t (3 : Fin 4) * 64 + 1 * (z 3).val = (z 3).val; omega
  · match a with
    | ⟨0, _⟩ => show (j 1).val = win0_2.index t (1 : Fin 3) * 128 + 1 * (j 1).val; omega
    | ⟨1, _⟩ => show (j 2).val = win0_2.index t (2 : Fin 3) * 3136 + 1 * (j 2).val; omega

/-- An entry of the stacked output lies in a visit's block exactly when each coordinate lies in the block's range. -/
theorem mem_conv_block (t : Fin cfg0.N) (i : S32x128x3136.Idx) :
    i ∈ ((cfg0.win 2).blk t).view.set ↔ ∀ a : Fin 3, win0_2.index t a * S4x128x3136.size a ≤ (i a).val
      ∧ (i a).val < win0_2.index t a * S4x128x3136.size a + S4x128x3136.size a := by
  show i ∈ ((View.whole main_call0_v7_0).slice (win0_2.rect t)).set ↔ _
  rw [View.set_slice_whole, Rect.mem_set_unit]
  exact Iff.rfl

/-- Every entry of the stacked output is written: image `n` belongs to visit `n / 4`. -/
theorem conv_cover (i : S32x128x3136.Idx) :
    ∃ t : Fin cfg0.N, (cfg0.win 2).flush t = true ∧ i ∈ ((cfg0.win 2).blk t).view.set := by
  have hi0 : (i 0).val < 32 := (i 0).isLt
  have hi1 : (i 1).val < 128 := (i 1).isLt
  have hi2 : (i 2).val < 3136 := (i 2).isLt
  have hN : cfg0.N = 8 := N_0
  have ht : (i 0).val / 4 < cfg0.N := by rw [hN]; omega
  refine ⟨⟨(i 0).val / 4, ht⟩, flush0_2 _, ?_⟩
  rw [mem_conv_block]
  obtain ⟨-, -, -, -, -, -, e0, e1, e2, -, -, -⟩ := conv_index_facts ⟨(i 0).val / 4, ht⟩
  intro a
  match a with
  | ⟨0, _⟩ =>
    show win0_2.index ⟨(i 0).val / 4, ht⟩ (0 : Fin 3) * 4 ≤ (i 0).val ∧ (i 0).val < win0_2.index ⟨(i 0).val / 4, ht⟩ (0 : Fin 3) * 4 + 4
    rw [e0]; show (i 0).val / 4 * 4 ≤ (i 0).val ∧ (i 0).val < (i 0).val / 4 * 4 + 4; omega
  | ⟨1, _⟩ =>
    show win0_2.index ⟨(i 0).val / 4, ht⟩ (1 : Fin 3) * 128 ≤ (i 1).val ∧ (i 1).val < win0_2.index ⟨(i 0).val / 4, ht⟩ (1 : Fin 3) * 128 + 128
    rw [e1]; omega
  | ⟨2, _⟩ =>
    show win0_2.index ⟨(i 0).val / 4, ht⟩ (2 : Fin 3) * 3136 ≤ (i 2).val ∧ (i 2).val < win0_2.index ⟨(i 0).val / 4, ht⟩ (2 : Fin 3) * 3136 + 3136
    rw [e2]; omega

/-- The stacked output the first region leaves: every image's product, with the product one closed function of the
    image and the weights. -/
theorem conv_final (c : Dev nD) :
    (dat0 (F := Ideal) V c).arrAt 2 cfg0.N
      = Cert.Spec.convAll (k0_pay3 (F := Ideal)) (V c main_call0_v2) (V c main_call0_v6) :=
  (dat0 (F := Ideal) V c).arrAt_eq_of_cover 2 _ (fun t _ => conv_block V c t) conv_cover

/-! ## The grouped statistics -/

/-- Image `k` of the block loaded at a visit is image `4 t + k` of the padded stack. -/
theorem image_of_block (c : Dev nD) (t : Fin cfg0.N) (g : Fin 8) (hg : g.val = t.val) (n : ℕ) (k : Fin 4) (hk : k.val = n)
    (inb : ∀ a, (![n, 0, 0, 0] : Fin 4 → Nat) a + S1x58x58x64.size a ≤ S4x58x58x64.size a) :
    View.ld (iblk0 V c 0 t : Vec Ideal S4x58x58x64 .bf16) (Rect.unit (s := S4x58x58x64) ![n, 0, 0, 0] S1x58x58x64.size inb)
      = Cert.Spec.img (V c main_call0_v2) (Cert.Spec.imgOf g k) := by
  obtain ⟨a0, a1, a2, a3, -, -, -, -, -, -, -, -⟩ := conv_index_facts t
  funext z
  have hz0 : (z 0).val < 1 := (z 0).isLt
  show V c main_call0_v2 (((cfg0.win 0).blk t).view.emb ((Rect.unit (s := S4x58x58x64) ![n, 0, 0, 0] S1x58x58x64.size inb).idx z))
      = V c main_call0_v2 (ix4 (Cert.Spec.imgOf g k) (z 1) (z 2) (z 3))
  refine congrArg _ (funext fun a => Fin.ext ?_)
  match a with
  | ⟨0, _⟩ => show win0_0.index t (0 : Fin 4) * 4 + 1 * (n + 1 * (z 0).val) = 4 * g.val + k.val; omega
  | ⟨1, _⟩ => show win0_0.index t (1 : Fin 4) * 58 + 1 * (0 + 1 * (z 1).val) = (z 1).val; omega
  | ⟨2, _⟩ => show win0_0.index t (2 : Fin 4) * 58 + 1 * (0 + 1 * (z 2).val) = (z 2).val; omega
  | ⟨3, _⟩ => show win0_0.index t (3 : Fin 4) * 64 + 1 * (0 + 1 * (z 3).val) = (z 3).val; omega

/-- What a visit writes back to the statistics array is its row of the grouped statistics. -/
theorem stats_block (c : Dev nD) (t : Fin cfg0.N) :
    (dat0 (F := Ideal) V c).flushed 3 t
      = ((cfg0.win 3).blk t).view.read (Elt Ideal)
          (Cert.Spec.statsGrouped (k0_pay3 (F := Ideal)) (V c main_call0_v2) (V c main_call0_v6)) := by
  show (cfg0.win 3).cut (grid0.coords t) ((dat0 (F := Ideal) V c).after 3 t) = _
  rw [after0_3]
  obtain ⟨-, -, -, -, -, -, -, -, -, e0, e1, e2⟩ := conv_index_facts t
  have hN : cfg0.N = 8 := N_0
  have ht : t.val < 8 := by have := t.isLt; omega
  funext j
  have hj0 : (j 0).val < 1 := (j 0).isLt
  have hi : (((cfg0.win 3).blk t).view.emb j : S8x128x2.Idx) = ix3 (⟨t.val, ht⟩ : Fin 8) (j 1) (j 2) := by
    funext a; apply Fin.ext
    match a with
    | ⟨0, _⟩ => show win0_3.index t (0 : Fin 3) * 1 + 1 * (j 0).val = t.val; omega
    | ⟨1, _⟩ => show win0_3.index t (1 : Fin 3) * 128 + 1 * (j 1).val = (j 1).val; omega
    | ⟨2, _⟩ => show win0_3.index t (2 : Fin 3) * 2 + 1 * (j 2).val = (j 2).val; omega
  show out0_3 (F := Ideal) (iblk0 V c 0 t) (iblk0 V c 1 t) j
      = Cert.Spec.statsGrouped (k0_pay3 (F := Ideal)) (V c main_call0_v2) (V c main_call0_v6) (((cfg0.win 3).blk t).view.emb j)
  refine Eq.trans ?_ (congrArg (Cert.Spec.statsGrouped (k0_pay3 (F := Ideal)) (V c main_call0_v2) (V c main_call0_v6)) hi.symm)
  exact grouped_eq _ _ _ _ j ⟨t.val, ht⟩
    (image_of_block V c t ⟨t.val, ht⟩ rfl 0 0 rfl _) (image_of_block V c t ⟨t.val, ht⟩ rfl 1 1 rfl _)
    (image_of_block V c t ⟨t.val, ht⟩ rfl 2 2 rfl _) (image_of_block V c t ⟨t.val, ht⟩ rfl 3 3 rfl _)
    (weights_block V c t)

/-- A row of the statistics array lies in a visit's block exactly when each coordinate lies in the block's range. -/
theorem mem_stats_block (t : Fin cfg0.N) (i : S8x128x2.Idx) :
    i ∈ ((cfg0.win 3).blk t).view.set ↔ ∀ a : Fin 3, win0_3.index t a * S1x128x2.size a ≤ (i a).val
      ∧ (i a).val < win0_3.index t a * S1x128x2.size a + S1x128x2.size a := by
  show i ∈ ((View.whole main_call0_v7_1).slice (win0_3.rect t)).set ↔ _
  rw [View.set_slice_whole, Rect.mem_set_unit]
  exact Iff.rfl

/-- Every row of the statistics array is written: group `g` belongs to visit `g`. -/
theorem stats_cover (i : S8x128x2.Idx) :
    ∃ t : Fin cfg0.N, (cfg0.win 3).flush t = true ∧ i ∈ ((cfg0.win 3).blk t).view.set := by
  have hi0 : (i 0).val < 8 := (i 0).isLt
  have hi1 : (i 1).val < 128 := (i 1).isLt
  have hi2 : (i 2).val < 2 := (i 2).isLt
  have hN : cfg0.N = 8 := N_0
  have ht : (i 0).val < cfg0.N := by rw [hN]; omega
  refine ⟨⟨(i 0).val, ht⟩, flush0_3 _, ?_⟩
  rw [mem_stats_block]
  obtain ⟨-, -, -, -, -, -, -, -, -, e0, e1, e2⟩ := conv_index_facts ⟨(i 0).val, ht⟩
  intro a
  match a with
  | ⟨0, _⟩ =>
    show win0_3.index ⟨(i 0).val, ht⟩ (0 : Fin 3) * 1 ≤ (i 0).val ∧ (i 0).val < win0_3.index ⟨(i 0).val, ht⟩ (0 : Fin 3) * 1 + 1
    rw [e0]; show (i 0).val * 1 ≤ (i 0).val ∧ (i 0).val < (i 0).val * 1 + 1; omega
  | ⟨1, _⟩ =>
    show win0_3.index ⟨(i 0).val, ht⟩ (1 : Fin 3) * 128 ≤ (i 1).val ∧ (i 1).val < win0_3.index ⟨(i 0).val, ht⟩ (1 : Fin 3) * 128 + 128
    rw [e1]; omega
  | ⟨2, _⟩ =>
    show win0_3.index ⟨(i 0).val, ht⟩ (2 : Fin 3) * 2 ≤ (i 2).val ∧ (i 2).val < win0_3.index ⟨(i 0).val, ht⟩ (2 : Fin 3) * 2 + 2
    rw [e2]; omega

/-- The statistics array the first region leaves: per group of four consecutive images and per channel, the sum over
    the pixels of the products and of their squares, the four images added in order. -/
theorem stats_final (c : Dev nD) :
    (dat0 (F := Ideal) V c).arrAt 3 cfg0.N
      = Cert.Spec.statsGrouped (k0_pay3 (F := Ideal)) (V c main_call0_v2) (V c main_call0_v6) :=
  (dat0 (F := Ideal) V c).arrAt_eq_of_cover 3 _ (fun t _ => stats_block V c t) stats_cover

end Cert.KernelIdeal.Hand
end
-- ==== Proof.KRegion1.lean ====
/-
  The second region read as one function of what it finds: every entry of the stacked convolutions is multiplied by
  its channel's scale and the channel's shift is added.  The region visits eight groups of four images; each visit
  rewrites its four images, the scale and shift columns being the same whole columns at every visit, so the array it
  leaves is the affine map of the array it found, entry by entry.
-/
import proofs.«162054_g2000305547337643_pallasbulk_427_5_alg».proof.Proof.Gen.KernelIdeal.Frame
import proofs.«162054_g2000305547337643_pallasbulk_427_5_alg».proof.Proof.Spec
import Idealize.ShloMosaic.Lib.Pipeline.Value
import Idealize.ShloMosaic.Lib.ValueIdx

set_option maxRecDepth 16384

noncomputable section
namespace Cert.KernelIdeal.Hand
open Idealize.ShloMosaic Idealize.ShloMosaic.TcCoe Idealize.ShloMosaic.ValueIdx Idealize.SL.Sem Cert.KernelIdeal Cert.KernelIdeal.Gen

variable (V : (c : Dev nD) → (b : Ref sig .tc) → Buf (Elt Ideal) ((c : Thread nD τ).loc b))

/-- The zero offsets of a rank-3 and of a rank-2 rectangle, as constant functions. -/
theorem zeros3 : (![0, 0, 0] : Fin 3 → Nat) = fun _ => 0 :=
  funext fun a => by match a with | ⟨0, _⟩ => rfl | ⟨1, _⟩ => rfl | ⟨2, _⟩ => rfl
theorem zeros2 : (![0, 0] : Fin 2 → Nat) = fun _ => 0 :=
  funext fun a => by match a with | ⟨0, _⟩ => rfl | ⟨1, _⟩ => rfl

/-- A column of per-channel values given a leading unit axis and repeated over images and pixels reads, at
    `(n, ch, p)`, the column's entry for channel `ch`. -/
theorem channel_column_apply (x : S128x1.Idx → EReal) (h1 : S128x1.ShapeCasts S1x128x1) (h2 : S1x128x1.Broadcasts S4x128x3136)
    (y : S4x128x3136.Idx) :
    broadcastTo S4x128x3136 (shapeCast S1x128x1 x h1) h2 y = x (ix2 (y 1) 0) := by
  refine (broadcastTo_apply _ h2 y (ix3 (0 : Fin 1) (y 1) (0 : Fin 1)) fun a => ?_).trans ?_
  · match a with
    | ⟨0, _⟩ => rfl
    | ⟨1, _⟩ => rfl
    | ⟨2, _⟩ => rfl
  · refine (shapeCast_addUnit_apply (n := 2) ![128, 1] x h1 _).trans (congrArg x (funext fun a => ?_))
    match a with
    | ⟨0, _⟩ => rfl
    | ⟨1, _⟩ => rfl

/-- The body's result at an index: the loaded entry times its channel's scale plus its channel's shift. -/
theorem affine_body_apply (x0 : S4x128x3136.Idx → EReal) (x1 x2 : S128x1.Idx → EReal) (y : S4x128x3136.Idx) :
    k1_pay1 (F := Ideal) x0 x1 x2 y = x0 y * x1 (ix2 (y 1) 0) + x2 (ix2 (y 1) 0) := by
  unfold k1_pay1
  simp only [shapeCast_self]
  rw [addf_apply, mulf_apply, extf_apply, channel_column_apply, channel_column_apply]

/-- The same against the affine map of whole arrays: when the loaded entry is the array's entry at `i` and the loaded
    columns agree with the arrays' columns at `i`'s channel. -/
theorem affine_point (A : Cert.Spec.SO.Idx → EReal) (sc sh : Cert.Spec.SCol.Idx → EReal)
    (x0 : S4x128x3136.Idx → EReal) (x1 x2 : S128x1.Idx → EReal) (y : S4x128x3136.Idx) (i : Cert.Spec.SO.Idx)
    (h0 : x0 y = A i) (h1 : x1 (ix2 (y 1) 0) = sc (ix2 (i 1) 0)) (h2 : x2 (ix2 (y 1) 0) = sh (ix2 (i 1) 0)) :
    k1_pay1 (F := Ideal) x0 x1 x2 y = Cert.Spec.affine A sc sh i := by
  rw [affine_body_apply, h0, h1, h2]
  rfl

/-- Where each window's block sits at a visit, decided over the eight visits: the image windows at the visit's own
    group, the two columns whole. -/
theorem affine_index_facts : ∀ t : Fin cfg1.N,
    win1_0.index t (0 : Fin 3) = t.val ∧ win1_0.index t (1 : Fin 3) = 0 ∧ win1_0.index t (2 : Fin 3) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 3) = t.val ∧ win1_3.index t (1 : Fin 3) = 0 ∧ win1_3.index t (2 : Fin 3) = 0 :=
  (by decide +kernel : ∀ t : Fin grid1.N, _)

/-- What a visit writes back is its block of the affine map of the arrays the region found. -/
theorem affine_block (c : Dev nD) (t : Fin cfg1.N) :
    (dat1 (F := Ideal) V c).flushed 3 t
      = ((cfg1.win 3).blk t).view.read (Elt Ideal)
          (Cert.Spec.affine (V c main_call0_v7_0) (V c main_call0_v25) (V c main_call0_v29)) := by
  show (cfg1.win 3).cut (grid1.coords t) ((dat1 (F := Ideal) V c).after 3 t) = _
  rw [after1_3]
  unfold out1_3
  rw [View.canon_unit_zero zeros3]
  simp only [View.ld_unit_zero (S := S4x128x3136) zeros3, View.ld_unit_zero (S := S128x1) zeros2]
  obtain ⟨a0, a1, a2, b0, b1, c0, c1, d0, d1, d2⟩ := affine_index_facts t
  funext j
  show k1_pay1 (F := Ideal) (iblk1 V c 0 t) (iblk1 V c 1 t) (iblk1 V c 2 t) j
      = Cert.Spec.affine (V c main_call0_v7_0) (V c main_call0_v25) (V c main_call0_v29) (((cfg1.win 3).blk t).view.emb j)
  refine affine_point _ _ _ _ _ _ _ _ ?_ ?_ ?_
  · show V c main_call0_v7_0 (((cfg1.win 0).blk t).view.emb j) = V c main_call0_v7_0 (((cfg1.win 3).blk t).view.emb j)
    refine congrArg _ (funext fun a => Fin.ext ?_)
    match a with
    | ⟨0, _⟩ => show win1_0.index t (0 : Fin 3) * 4 + 1 * (j 0).val = win1_3.index t (0 : Fin 3) * 4 + 1 * (j 0).val; omega
    | ⟨1, _⟩ => show win1_0.index t (1 : Fin 3) * 128 + 1 * (j 1).val = win1_3.index t (1 : Fin 3) * 128 + 1 * (j 1).val; omega
    | ⟨2, _⟩ => show win1_0.index t (2 : Fin 3) * 3136 + 1 * (j 2).val = win1_3.index t (2 : Fin 3) * 3136 + 1 * (j 2).val; omega
  · show V c main_call0_v25 (((cfg1.win 1).blk t).view.emb (ix2 (j 1) 0)) = V c main_call0_v25 (ix2 ((((cfg1.win 3).blk t).view.emb j) 1) 0)
    refine congrArg _ (funext fun a => Fin.ext ?_)
    match a with
    | ⟨0, _⟩ => show win1_1.index t (0 : Fin 2) * 128 + 1 * (j 1).val = win1_3.index t (1 : Fin 3) * 128 + 1 * (j 1).val; omega
    | ⟨1, _⟩ => show win1_1.index t (1 : Fin 2) * 1 + 1 * 0 = 0; omega
  · show V c main_call0_v29 (((cfg1.win 2).blk t).view.emb (ix2 (j 1) 0)) = V c main_call0_v29 (ix2 ((((cfg1.win 3).blk t).view.emb j) 1) 0)
    refine congrArg _ (funext fun a => Fin.ext ?_)
    match a with
    | ⟨0, _⟩ => show win1_2.index t (0 : Fin 2) * 128 + 1 * (j 1).val = win1_3.index t (1 : Fin 3) * 128 + 1 * (j 1).val; omega
    | ⟨1, _⟩ => show win1_2.index t (1 : Fin 2) * 1 + 1 * 0 = 0; omega

/-- An entry of the output array lies in a visit's block exactly when each coordinate lies in the block's range. -/
theorem mem_affine_block (t : Fin cfg1.N) (i : S32x128x3136.Idx) :
    i ∈ ((cfg1.win 3).blk t).view.set ↔ ∀ a : Fin 3, win1_3.index t a * S4x128x3136.size a ≤ (i a).val
      ∧ (i a).val < win1_3.index t a * S4x128x3136.size a + S4x128x3136.size a := by
  show i ∈ ((View.whole main_call0_v30).slice (win1_3.rect t)).set ↔ _
  rw [View.set_slice_whole, Rect.mem_set_unit]
  exact Iff.rfl

/-- Every entry is rewritten: image `n` belongs to visit `n / 4`. -/
theorem affine_cover (i : S32x128x3136.Idx) :
    ∃ t : Fin cfg1.N, (cfg1.win 3).flush t = true ∧ i ∈ ((cfg1.win 3).blk t).view.set := by
  have hi0 : (i 0).val < 32 := (i 0).isLt
  have hi1 : (i 1).val < 128 := (i 1).isLt
  have hi2 : (i 2).val < 3136 := (i 2).isLt
  have hN : cfg1.N = 8 := N_1
  have ht : (i 0).val / 4 < cfg1.N := by rw [hN]; omega
  refine ⟨⟨(i 0).val / 4, ht⟩, flush1_3 _, ?_⟩
  rw [mem_affine_block]
  obtain ⟨-, -, -, -, -, -, -, e0, e1, e2⟩ := affine_index_facts ⟨(i 0).val / 4, ht⟩
  intro a
  match a with
  | ⟨0, _⟩ =>
    show win1_3.index ⟨(i 0).val / 4, ht⟩ (0 : Fin 3) * 4 ≤ (i 0).val ∧ (i 0).val < win1_3.index ⟨(i 0).val / 4, ht⟩ (0 : Fin 3) * 4 + 4
    rw [e0]; show (i 0).val / 4 * 4 ≤ (i 0).val ∧ (i 0).val < (i 0).val / 4 * 4 + 4; omega
  | ⟨1, _⟩ =>
    show win1_3.index ⟨(i 0).val / 4, ht⟩ (1 : Fin 3) * 128 ≤ (i 1).val ∧ (i 1).val < win1_3.index ⟨(i 0).val / 4, ht⟩ (1 : Fin 3) * 128 + 128
    rw [e1]; omega
  | ⟨2, _⟩ =>
    show win1_3.index ⟨(i 0).val / 4, ht⟩ (2 : Fin 3) * 3136 ≤ (i 2).val ∧ (i 2).val < win1_3.index ⟨(i 0).val / 4, ht⟩ (2 : Fin 3) * 3136 + 3136
    rw [e2]; omega

/-- The array the second region leaves: the affine map, channel by channel, of the stacked convolutions it found. -/
theorem affine_final (c : Dev nD) :
    (dat1 (F := Ideal) V c).arrAt 3 cfg1.N
      = Cert.Spec.affine (V c main_call0_v7_0) (V c main_call0_v25) (V c main_call0_v29) :=
  (dat1 (F := Ideal) V c).arrAt_eq_of_cover 3 _ (fun t _ => affine_block V c t) affine_cover

end Cert.KernelIdeal.Hand
end
-- ==== Proof.RConv.lean ====
/-
  One image's convolution in the reference, as the term both of its kernels contain: nine shifted 56 by 56 windows of
  the padded image, each flattened to a [3136, 64] matrix, laid side by side into the [3136, 576] patch matrix, which is
  transposed and multiplied on the left by the [128, 576] weights.  The statistics kernel's stored value and the apply
  kernel's stored value are both functions of this one term.
-/
import proofs.«162054_g2000305547337643_pallasbulk_427_5_alg».proof.Proof.Gen.ReferenceIdeal.Skeleton

set_option synthInstance.maxSize 4096

noncomputable section

namespace Cert.ReferenceIdeal.Hand

open Idealize.ShloMosaic Idealize.SL.Sem
open Cert.ReferenceIdeal Cert.ReferenceIdeal.Gen

variable {F : FTy → Type} [FloatOps F]

/-- The convolution of one padded image `v0` (leading axis of extent one) with the folded weights `v21`:
    `[128, 576] x [576, 3136]`, the right factor the transposed patch matrix. -/
noncomputable def conv (v0 : Vec F S1x58x58x64 .f32) (v21 : Vec F S128x576 .f32) : FVec F S128x3136 .f32 :=
  have v1 : FVec F S58x58x64 .f32 := shapeCast S58x58x64 v0 shapeCasts_S1x58x58x64_S58x58x64
  have v2 : FVec F S56x56x64 .f32 := extractStridedSlice S56x56x64 ![0, 0, 0] v1 slices_S58x58x64_o0_0_0_S56x56x64
  have v3 : FVec F S3136x64 .f32 := shapeCast S3136x64 v2 shapeCasts_S56x56x64_S3136x64
  have v4 : FVec F S56x56x64 .f32 := extractStridedSlice S56x56x64 ![0, 1, 0] v1 slices_S58x58x64_o0_1_0_S56x56x64
  have v5 : FVec F S3136x64 .f32 := shapeCast S3136x64 v4 shapeCasts_S56x56x64_S3136x64
  have v6 : FVec F S56x56x64 .f32 := extractStridedSlice S56x56x64 ![0, 2, 0] v1 slices_S58x58x64_o0_2_0_S56x56x64
  have v7 : FVec F S3136x64 .f32 := shapeCast S3136x64 v6 shapeCasts_S56x56x64_S3136x64
  have v8 : FVec F S56x56x64 .f32 := extractStridedSlice S56x56x64 ![1, 0, 0] v1 slices_S58x58x64_o1_0_0_S56x56x64
  have v9 : FVec F S3136x64 .f32 := shapeCast S3136x64 v8 shapeCasts_S56x56x64_S3136x64
  have v10 : FVec F S56x56x64 .f32 := extractStridedSlice S56x56x64 ![1, 1, 0] v1 slices_S58x58x64_o1_1_0_S56x56x64
  have v11 : FVec F S3136x64 .f32 := shapeCast S3136x64 v10 shapeCasts_S56x56x64_S3136x64
  have v12 : FVec F S56x56x64 .f32 := extractStridedSlice S56x56x64 ![1, 2, 0] v1 slices_S58x58x64_o1_2_0_S56x56x64
  have v13 : FVec F S3136x64 .f32 := shapeCast S3136x64 v12 shapeCasts_S56x56x64_S3136x64
  have v14 : FVec F S56x56x64 .f32 := extractStridedSlice S56x56x64 ![2, 0, 0] v1 slices_S58x58x64_o2_0_0_S56x56x64
  have v15 : FVec F S3136x64 .f32 := shapeCast S3136x64 v14 shapeCasts_S56x56x64_S3136x64
  have v16 : FVec F S56x56x64 .f32 := extractStridedSlice S56x56x64 ![2, 1, 0] v1 slices_S58x58x64_o2_1_0_S56x56x64
  have v17 : FVec F S3136x64 .f32 := shapeCast S3136x64 v16 shapeCasts_S56x56x64_S3136x64
  have v18 : FVec F S56x56x64 .f32 := extractStridedSlice S56x56x64 ![2, 2, 0] v1 slices_S58x58x64_o2_2_0_S56x56x64
  have v19 : FVec F S3136x64 .f32 := shapeCast S3136x64 v18 shapeCasts_S56x56x64_S3136x64
  have v20 : FVec F S3136x576 .f32 := concatenate S3136x576 1 [⟨S3136x64, v3⟩, ⟨S3136x64, v5⟩, ⟨S3136x64, v7⟩, ⟨S3136x64, v9⟩, ⟨S3136x64, v11⟩, ⟨S3136x64, v13⟩, ⟨S3136x64, v15⟩, ⟨S3136x64, v17⟩, ⟨S3136x64, v19⟩] concatenates_S3136x64_S3136x64_S3136x64_S3136x64_S3136x64_S3136x64_S3136x64_S3136x64_S3136x64_S3136x576_d1
  have v22 : FVec F S128x576 .f32 := shapeCast S128x576 v21 shapeCasts_S128x576_S128x576
  have v23 : FVec F S576x3136 .f32 := transpose S576x3136 [1, 0] v20 transposes_S3136x576_p1_0_S576x3136
  have cst : FVec F S128x3136 .f32 := constant S128x3136 .f32 0x00000000#32
  have v24 : FVec F S128x3136 .f32 := matmul dot_S128x576_S576x3136_S128x3136_1_0_0_1_n_n none v22 v23 cst
  v24

/-- The statistics kernel stores the row sums of the convolution and of its squares, as two columns side by side. -/
theorem k0_pay1_eq (v0 : Vec F S1x58x58x64 .f32) (v21 : Vec F S128x576 .f32) :
    k0_pay1 v0 v21 = shapeCast S1x128x2 (concatenate S128x2 1
      [⟨S128x1, shapeCast S128x1 (multiReduction .add [1] S128 (conv v0 v21) 0x00000000#32 reduces_S128x3136_S128 (.inl rfl) rfl) shapeCasts_S128_S128x1⟩,
       ⟨S128x1, shapeCast S128x1 (multiReduction .add [1] S128 (mulf (conv v0 v21) (conv v0 v21)) 0x00000000#32 reduces_S128x3136_S128 (.inl rfl) rfl) shapeCasts_S128_S128x1⟩]
      concatenates_S128x1_S128x1_S128x2_d1) shapeCasts_S128x2_S1x128x2 := rfl

/-- The apply kernel stores the convolution times the broadcast scale column plus the broadcast shift column. -/
theorem k1_pay1_eq (v0 : Vec F S1x58x58x64 .f32) (v21 : Vec F S128x576 .f32) (v25 : Vec F S128x1 .f32) (v29 : Vec F S128x1 .f32) :
    k1_pay1 v0 v21 v25 v29 = shapeCast S1x128x3136 (addf (mulf (conv v0 v21)
        (broadcastTo S128x3136 (shapeCast S128x1 v25 shapeCasts_S128x1_S128x1) broadcasts_S128x1_S128x3136))
      (broadcastTo S128x3136 (shapeCast S128x1 v29 shapeCasts_S128x1_S128x1) broadcasts_S128x1_S128x3136))
      shapeCasts_S128x3136_S1x128x3136 := rfl

end Cert.ReferenceIdeal.Hand

end
-- ==== Proof.RPay.lean ====
/-
  What the reference's two kernels store, read at one index of the stored block.

  The statistics kernel stores, for one image, a [1, 128, 2] block: entry (0, c, 0) is the sum over the pixels of the
  image's convolution in channel c, entry (0, c, 1) the sum of its squares.  The apply kernel stores a [1, 128, 3136]
  block: entry (0, c, p) is the convolution at (c, p) times the scale of channel c plus the shift of channel c.
  The convolution itself stays one closed term throughout.
-/
import proofs.«162054_g2000305547337643_pallasbulk_427_5_alg».proof.Proof.Gen.ReferenceIdeal.Skeleton
import proofs.«162054_g2000305547337643_pallasbulk_427_5_alg».proof.Proof.Spec
import proofs.«162054_g2000305547337643_pallasbulk_427_5_alg».proof.Proof.RConv
import proofs.«162054_g2000305547337643_pallasbulk_427_5_alg».proof.Proof.LibRowLit
import Idealize.ShloMosaic.Lib.Pipeline.Value
import Idealize.ShloMosaic.Lib.ValueLayout

noncomputable section

open scoped BigOperators

namespace Cert.ReferenceIdeal.Hand

open Idealize.ShloMosaic Idealize.ShloMosaic.ValueIdx Idealize.SL.Sem
open Cert.ReferenceIdeal Cert.ReferenceIdeal.Gen

/-- Two [128, 1] columns laid side by side, read in the first column: the first piece's entry of that row. -/
theorem pair_columns_left {α : Type} (A B : S128x1.Idx → α) (p : Fin 128) :
    concatenate S128x2 1 [⟨S128x1, A⟩, ⟨S128x1, B⟩] concatenates_S128x1_S128x1_S128x2_d1 (ix2 p (0 : Fin 2))
      = A (ix2 p (0 : Fin 1)) :=
  concatenate_pair_apply_left (t := S128x2) (s₁ := S128x1) (s₂ := S128x1) (1 : Fin 2) A B
    concatenates_S128x1_S128x1_S128x2_d1 (ix2 p (0 : Fin 2)) rfl (ix2 p (0 : Fin 1))
    (fun b => match b with | ⟨0, _⟩ => rfl | ⟨1, _⟩ => rfl)

/-- The same read in the second column: the second piece's entry of that row. -/
theorem pair_columns_right {α : Type} (A B : S128x1.Idx → α) (p : Fin 128) :
    concatenate S128x2 1 [⟨S128x1, A⟩, ⟨S128x1, B⟩] concatenates_S128x1_S128x1_S128x2_d1 (ix2 p (1 : Fin 2))
      = B (ix2 p (0 : Fin 1)) :=
  concatenate_pair_apply_right (t := S128x2) (s₁ := S128x1) (s₂ := S128x1) (1 : Fin 2) A B
    concatenates_S128x1_S128x1_S128x2_d1 (ix2 p (1 : Fin 2)) rfl rfl (ix2 p (0 : Fin 1))
    (fun b hb => match b, hb with | ⟨0, _⟩, _ => rfl | ⟨1, _⟩, hb => absurd rfl hb) rfl

/-- A row sum of a [128, 3136] array kept as a [128, 1] column, read at (c, 0): the sum over the row's entries. -/
theorem rowSum_column (v : FVec Ideal S128x3136 .f32) (p : Fin 128) :
    shapeCast S128x1 (multiReduction .add [1] S128 v 0x00000000#32 reduces_S128x3136_S128 (.inl rfl) rfl)
        shapeCasts_S128_S128x1 (ix2 p (0 : Fin 1))
      = ∑ q : Fin 3136, v (ix2 p q) :=
  (Cert.Lib.ColumnLayout.shapeCast_a_a1_apply (a := 128) _ shapeCasts_S128_S128x1 p (0 : Fin 1)).trans
    (Cert.Lib.RowLit.rowSum_lit (a := 128) (n := 3136) v reduces_S128x3136_S128 p)

/-- The stored statistics block at (u, c, k): column k of the image's statistics for channel c. -/
theorem stats_pay_apply (x0 : Vec Ideal S1x58x58x64 .f32) (x1 : Vec Ideal S128x576 .f32)
    (u : Fin 1) (p : Fin 128) (k : Fin 2) :
    k0_pay1 x0 x1 (ix3 u p k) = Cert.Spec.stat (conv (F := Ideal) x0 x1) p k := by
  rw [k0_pay1_eq]
  refine (shapeCast_ab_1ab_apply (a := 128) (b := 2) _ shapeCasts_S128x2_S1x128x2 u p k).trans ?_
  unfold Cert.Spec.stat
  match k with
  | ⟨0, _⟩ =>
    rw [if_pos rfl]
    exact (pair_columns_left _ _ p).trans (rowSum_column _ p)
  | ⟨1, _⟩ =>
    rw [if_neg Nat.one_ne_zero]
    exact (pair_columns_right _ _ p).trans (rowSum_column _ p)

/-- The same at any index of the block. -/
theorem stats_pay_at (x0 : Vec Ideal S1x58x58x64 .f32) (x1 : Vec Ideal S128x576 .f32) (y : S1x128x2.Idx) :
    k0_pay1 x0 x1 y = Cert.Spec.stat (conv (F := Ideal) x0 x1) (y 1) (y 2) :=
  (congrArg (k0_pay1 x0 x1) (eq_ix3 y)).trans (stats_pay_apply x0 x1 (y 0) (y 1) (y 2))

/-- The stored output block at (u, c, p): the convolution at (c, p) scaled and shifted by channel c's coefficients. -/
theorem apply_pay_apply (x0 : Vec Ideal S1x58x58x64 .f32) (x1 : Vec Ideal S128x576 .f32)
    (x2 : Vec Ideal S128x1 .f32) (x3 : Vec Ideal S128x1 .f32) (u : Fin 1) (p : Fin 128) (q : Fin 3136) :
    k1_pay1 x0 x1 x2 x3 (ix3 u p q)
      = conv (F := Ideal) x0 x1 (ix2 p q) * x2 (ix2 p (0 : Fin 1)) + x3 (ix2 p (0 : Fin 1)) := by
  rw [k1_pay1_eq]
  refine (shapeCast_ab_1ab_apply (a := 128) (b := 3136) _ shapeCasts_S128x3136_S1x128x3136 u p q).trans ?_
  show conv (F := Ideal) x0 x1 (ix2 p q) * _ + _ = _
  rw [Cert.Lib.ColumnLayout.broadcastTo_a1_ab_apply (a := 128) (b := 3136) _ broadcasts_S128x1_S128x3136 p q,
    Cert.Lib.ColumnLayout.broadcastTo_a1_ab_apply (a := 128) (b := 3136) _ broadcasts_S128x1_S128x3136 p q,
    shapeCast_self, shapeCast_self]

/-- The same at any index of the block. -/
theorem apply_pay_at (x0 : Vec Ideal S1x58x58x64 .f32) (x1 : Vec Ideal S128x576 .f32)
    (x2 : Vec Ideal S128x1 .f32) (x3 : Vec Ideal S128x1 .f32) (y : S1x128x3136.Idx) :
    k1_pay1 x0 x1 x2 x3 y
      = conv (F := Ideal) x0 x1 (ix2 (y 1) (y 2)) * x2 (ix2 (y 1) (0 : Fin 1)) + x3 (ix2 (y 1) (0 : Fin 1)) :=
  (congrArg (k1_pay1 x0 x1 x2 x3) (eq_ix3 y)).trans (apply_pay_apply x0 x1 x2 x3 (y 0) (y 1) (y 2))

end Cert.ReferenceIdeal.Hand

end
-- ==== Proof.RRegion0.lean ====
/-
  The statistics region of the reference, as one closed function of what it finds on entry.

  The grid has 32 points; point n stages padded image n (one [1, 58, 58, 64] block of the image stack) and the whole
  weights, and writes back the [1, 128, 2] block n of the statistics array: the sums over the pixels of image n's
  convolution and of its squares, channel by channel.  The 32 blocks tile the array, so after the last point entry
  (n, c, k) holds column k of image n's statistics for channel c.
-/
import proofs.«162054_g2000305547337643_pallasbulk_427_5_alg».proof.Proof.Gen.ReferenceIdeal.Frame
import proofs.«162054_g2000305547337643_pallasbulk_427_5_alg».proof.Proof.Spec
import proofs.«162054_g2000305547337643_pallasbulk_427_5_alg».proof.Proof.RConv
import proofs.«162054_g2000305547337643_pallasbulk_427_5_alg».proof.Proof.RPay
import Idealize.ShloMosaic.Lib.Pipeline.Value

set_option maxRecDepth 16384

noncomputable section
namespace Cert.ReferenceIdeal.Hand
open Idealize.ShloMosaic Idealize.ShloMosaic.TcCoe Idealize.ShloMosaic.ValueIdx Idealize.SL.Sem Cert.ReferenceIdeal Cert.ReferenceIdeal.Gen
open Idealize.ShloMosaic.Pipeline (Dat)

variable (V : (c : Dev nD) → (b : Ref sig .tc) → Buf (Elt Ideal) ((c : Thread nD τ).loc b))

private theorem zeros4 : (![0, 0, 0, 0] : Fin 4 → Nat) = fun _ => 0 := funext fun a => by fin_cases a <;> rfl
private theorem zeros3 : (![0, 0, 0] : Fin 3 → Nat) = fun _ => 0 := funext fun a => by fin_cases a <;> rfl
private theorem zeros2 : (![0, 0] : Fin 2 → Nat) = fun _ => 0 := funext fun a => by fin_cases a <;> rfl

/-- The index maps of the statistics region, decided over the 32 points: the image window and the output window are
    at block n along the leading axis and at block 0 along the others; the weights window is at block 0. -/
theorem stats_index : ∀ t : Fin cfg0.N,
    win0_0.index t (0 : Fin 4) = t.val ∧ win0_0.index t (1 : Fin 4) = 0 ∧ win0_0.index t (2 : Fin 4) = 0
    ∧ win0_0.index t (3 : Fin 4) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

/-- The image window's block at point n is image n of the stack, its leading unit axis kept. -/
theorem stats_image_block (c : Dev nD) (t : Fin cfg0.N) :
    (iblk0 V c 0 t : Vec Ideal S1x58x58x64 .f32) = Cert.Spec.img (V c main_call0_v1) (t.cast N_0) := by
  obtain ⟨e0, e1, e2, e3, -⟩ := stats_index t
  funext y
  unfold iblk0
  rw [View.read_apply]
  show V c main_call0_v1 _ = V c main_call0_v1 _
  congr 1
  funext a
  apply Fin.ext
  have h0 : (y 0).val < 1 := (y 0).isLt
  match a with
  | ⟨0, _⟩ => show win0_0.index t (0 : Fin 4) * 1 + 1 * (y 0).val = t.val; omega
  | ⟨1, _⟩ => show win0_0.index t (1 : Fin 4) * 58 + 1 * (y 1).val = (y 1).val; omega
  | ⟨2, _⟩ => show win0_0.index t (2 : Fin 4) * 58 + 1 * (y 2).val = (y 2).val; omega
  | ⟨3, _⟩ => show win0_0.index t (3 : Fin 4) * 64 + 1 * (y 3).val = (y 3).val; omega

/-- The weights window's block at every point is the whole weights array. -/
theorem stats_weights_block (c : Dev nD) (t : Fin cfg0.N) :
    (iblk0 V c 1 t : Vec Ideal S128x576 .f32) = V c main_call0_v4 := by
  obtain ⟨-, -, -, -, e0, e1, -⟩ := stats_index t
  funext y
  unfold iblk0
  rw [View.read_apply]
  show V c main_call0_v4 _ = V c main_call0_v4 _
  congr 1
  funext a
  apply Fin.ext
  match a with
  | ⟨0, _⟩ => show win0_1.index t (0 : Fin 2) * 128 + 1 * (y 0).val = (y 0).val; omega
  | ⟨1, _⟩ => show win0_1.index t (1 : Fin 2) * 576 + 1 * (y 1).val = (y 1).val; omega

/-- WHAT POINT n WRITES BACK is block n of the statistics of every image. -/
theorem stats_flushed (c : Dev nD) (t : Fin cfg0.N) :
    (dat0 (F := Ideal) V c).flushed 2 t = ((cfg0.win 2).blk t).view.read (Elt Ideal)
      (Cert.Spec.statsEach (conv (F := Ideal)) (V c main_call0_v1) (V c main_call0_v4)) := by
  show (cfg0.win 2).cut (grid0.coords t) ((dat0 V c).after 2 t) = _
  rw [after0_2]
  unfold out0_2
  rw [View.canon_unit_zero zeros3]
  simp only [View.ld_unit_zero (S := S1x58x58x64) zeros4, View.ld_unit_zero (S := S128x576) zeros2]
  rw [stats_image_block, stats_weights_block]
  obtain ⟨-, -, -, -, -, -, e0, e1, e2⟩ := stats_index t
  funext j
  rw [View.read_apply]
  refine (stats_pay_at _ _ _).trans ?_
  unfold Cert.Spec.statsEach
  have h0 : (j 0).val < 1 := (j 0).isLt
  have hn : (((cfg0.win 2).blk t).view.emb j) 0 = t.cast N_0 := by
    apply Fin.ext
    show win0_2.index t (0 : Fin 3) * 1 + 1 * (j 0).val = t.val
    omega
  have hc : (((cfg0.win 2).blk t).view.emb j) 1 = ⟨(j 1).val, (j 1).isLt⟩ := by
    apply Fin.ext
    show win0_2.index t (1 : Fin 3) * 128 + 1 * (j 1).val = (j 1).val
    omega
  have hk : (((cfg0.win 2).blk t).view.emb j) 2 = ⟨(j 2).val, (j 2).isLt⟩ := by
    apply Fin.ext
    show win0_2.index t (2 : Fin 3) * 2 + 1 * (j 2).val = (j 2).val
    omega
  show Cert.Spec.stat _ _ _ = Cert.Spec.stat _ _ _
  rw [hn, hc, hk]
  rfl

/-- An index of the statistics array is in point n's block iff each coordinate is in the block's range on its axis. -/
theorem stats_mem_blk (t : Fin cfg0.N) (i : S32x128x2.Idx) :
    i ∈ ((cfg0.win 2).blk t).view.set ↔ ∀ a : Fin 3, win0_2.index t a * S1x128x2.size a ≤ (i a).val ∧ (i a).val < win0_2.index t a * S1x128x2.size a + S1x128x2.size a := by
  show i ∈ ((View.whole main_call0_v5).slice (win0_2.rect t)).set ↔ _
  rw [View.set_slice_whole, Rect.mem_set_unit]
  exact Iff.rfl

/-- Every index of the statistics array is in the block of the point its image number names. -/
theorem stats_cover (i : S32x128x2.Idx) :
    ∃ t : Fin cfg0.N, (cfg0.win 2).flush t = true ∧ i ∈ ((cfg0.win 2).blk t).view.set := by
  have hi0 : (i 0).val < 32 := (i 0).isLt
  have hi1 : (i 1).val < 128 := (i 1).isLt
  have hi2 : (i 2).val < 2 := (i 2).isLt
  refine ⟨(⟨(i 0).val, hi0⟩ : Fin 32).cast N_0.symm, flush0_2 _, ?_⟩
  obtain ⟨-, -, -, -, -, -, e0, e1, e2⟩ := stats_index ((⟨(i 0).val, hi0⟩ : Fin 32).cast N_0.symm)
  rw [stats_mem_blk]
  intro a
  match a with
  | ⟨0, _⟩ => show win0_2.index _ (0 : Fin 3) * 1 ≤ (i 0).val ∧ (i 0).val < win0_2.index _ (0 : Fin 3) * 1 + 1; rw [e0]; show (i 0).val * 1 ≤ (i 0).val ∧ (i 0).val < (i 0).val * 1 + 1; omega
  | ⟨1, _⟩ => show win0_2.index _ (1 : Fin 3) * 128 ≤ (i 1).val ∧ (i 1).val < win0_2.index _ (1 : Fin 3) * 128 + 128; rw [e1]; omega
  | ⟨2, _⟩ => show win0_2.index _ (2 : Fin 3) * 2 ≤ (i 2).val ∧ (i 2).val < win0_2.index _ (2 : Fin 3) * 2 + 2; rw [e2]; omega

/-- THE STATISTICS ARRAY after the region: the statistics of every image. -/
theorem stats_final (c : Dev nD) :
    (dat0 (F := Ideal) V c).arrAt 2 cfg0.N
      = Cert.Spec.statsEach (conv (F := Ideal)) (V c main_call0_v1) (V c main_call0_v4) :=
  (dat0 (F := Ideal) V c).arrAt_eq_of_cover 2 _ (fun t _ => stats_flushed V c t) stats_cover

end Cert.ReferenceIdeal.Hand
end
-- ==== Proof.RRegion1.lean ====
/-
  The apply region of the reference, as one closed function of what it finds on entry.

  The grid has 32 points; point n stages padded image n, the whole weights and the two whole [128, 1] coefficient
  columns, and writes back the [1, 128, 3136] block n of the output array: image n's convolution, scaled and shifted
  channel by channel.  The 32 blocks tile the array, so after the last point entry (n, c, p) holds image n's convolution
  at (c, p) times the scale of channel c plus the shift of channel c.
-/
import proofs.«162054_g2000305547337643_pallasbulk_427_5_alg».proof.Proof.Gen.ReferenceIdeal.Frame
import proofs.«162054_g2000305547337643_pallasbulk_427_5_alg».proof.Proof.Spec
import proofs.«162054_g2000305547337643_pallasbulk_427_5_alg».proof.Proof.RConv
import proofs.«162054_g2000305547337643_pallasbulk_427_5_alg».proof.Proof.RPay
import Idealize.ShloMosaic.Lib.Pipeline.Value

set_option maxRecDepth 16384

noncomputable section
namespace Cert.ReferenceIdeal.Hand
open Idealize.ShloMosaic Idealize.ShloMosaic.TcCoe Idealize.ShloMosaic.ValueIdx Idealize.SL.Sem Cert.ReferenceIdeal Cert.ReferenceIdeal.Gen
open Idealize.ShloMosaic.Pipeline (Dat)

variable (V : (c : Dev nD) → (b : Ref sig .tc) → Buf (Elt Ideal) ((c : Thread nD τ).loc b))

private theorem azeros4 : (![0, 0, 0, 0] : Fin 4 → Nat) = fun _ => 0 := funext fun a => by fin_cases a <;> rfl
private theorem azeros3 : (![0, 0, 0] : Fin 3 → Nat) = fun _ => 0 := funext fun a => by fin_cases a <;> rfl
private theorem azeros2 : (![0, 0] : Fin 2 → Nat) = fun _ => 0 := funext fun a => by fin_cases a <;> rfl

/-- The index maps of the apply region, decided over the 32 points: the image window and the output window are at
    block n along the leading axis and at block 0 along the others; the weights and the two coefficient columns are at
    block 0. -/
theorem apply_index : ∀ t : Fin cfg1.N,
    win1_0.index t (0 : Fin 4) = t.val ∧ win1_0.index t (1 : Fin 4) = 0 ∧ win1_0.index t (2 : Fin 4) = 0
    ∧ win1_0.index t (3 : Fin 4) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 3) = t.val ∧ win1_4.index t (1 : Fin 3) = 0 ∧ win1_4.index t (2 : Fin 3) = 0 :=
  (by decide +kernel : ∀ t : Fin grid1.N, _)

/-- The image window's block at point n is image n of the stack, its leading unit axis kept. -/
theorem apply_image_block (c : Dev nD) (t : Fin cfg1.N) :
    (iblk1 V c 0 t : Vec Ideal S1x58x58x64 .f32) = Cert.Spec.img (V c main_call0_v1) (t.cast N_1) := by
  obtain ⟨e0, e1, e2, e3, -⟩ := apply_index t
  funext y
  unfold iblk1
  rw [View.read_apply]
  show V c main_call0_v1 _ = V c main_call0_v1 _
  congr 1
  funext a
  apply Fin.ext
  have h0 : (y 0).val < 1 := (y 0).isLt
  match a with
  | ⟨0, _⟩ => show win1_0.index t (0 : Fin 4) * 1 + 1 * (y 0).val = t.val; omega
  | ⟨1, _⟩ => show win1_0.index t (1 : Fin 4) * 58 + 1 * (y 1).val = (y 1).val; omega
  | ⟨2, _⟩ => show win1_0.index t (2 : Fin 4) * 58 + 1 * (y 2).val = (y 2).val; omega
  | ⟨3, _⟩ => show win1_0.index t (3 : Fin 4) * 64 + 1 * (y 3).val = (y 3).val; omega

/-- The weights window's block at every point is the whole weights array. -/
theorem apply_weights_block (c : Dev nD) (t : Fin cfg1.N) :
    (iblk1 V c 1 t : Vec Ideal S128x576 .f32) = V c main_call0_v4 := by
  obtain ⟨-, -, -, -, e0, e1, -⟩ := apply_index t
  funext y
  unfold iblk1
  rw [View.read_apply]
  show V c main_call0_v4 _ = V c main_call0_v4 _
  congr 1
  funext a
  apply Fin.ext
  match a with
  | ⟨0, _⟩ => show win1_1.index t (0 : Fin 2) * 128 + 1 * (y 0).val = (y 0).val; omega
  | ⟨1, _⟩ => show win1_1.index t (1 : Fin 2) * 576 + 1 * (y 1).val = (y 1).val; omega

/-- The scale window's block at every point is the whole scale column. -/
theorem apply_scale_block (c : Dev nD) (t : Fin cfg1.N) :
    (iblk1 V c 2 t : Vec Ideal S128x1 .f32) = V c main_call0_v25 := by
  obtain ⟨-, -, -, -, -, -, e0, e1, -⟩ := apply_index t
  funext y
  unfold iblk1
  rw [View.read_apply]
  show V c main_call0_v25 _ = V c main_call0_v25 _
  congr 1
  funext a
  apply Fin.ext
  match a with
  | ⟨0, _⟩ => show win1_2.index t (0 : Fin 2) * 128 + 1 * (y 0).val = (y 0).val; omega
  | ⟨1, _⟩ => show win1_2.index t (1 : Fin 2) * 1 + 1 * (y 1).val = (y 1).val; omega

/-- The shift window's block at every point is the whole shift column. -/
theorem apply_shift_block (c : Dev nD) (t : Fin cfg1.N) :
    (iblk1 V c 3 t : Vec Ideal S128x1 .f32) = V c main_call0_v26 := by
  obtain ⟨-, -, -, -, -, -, -, -, e0, e1, -⟩ := apply_index t
  funext y
  unfold iblk1
  rw [View.read_apply]
  show V c main_call0_v26 _ = V c main_call0_v26 _
  congr 1
  funext a
  apply Fin.ext
  match a with
  | ⟨0, _⟩ => show win1_3.index t (0 : Fin 2) * 128 + 1 * (y 0).val = (y 0).val; omega
  | ⟨1, _⟩ => show win1_3.index t (1 : Fin 2) * 1 + 1 * (y 1).val = (y 1).val; omega

/-- WHAT POINT n WRITES BACK is block n of every image's convolution, scaled and shifted. -/
theorem apply_flushed (c : Dev nD) (t : Fin cfg1.N) :
    (dat1 (F := Ideal) V c).flushed 4 t = ((cfg1.win 4).blk t).view.read (Elt Ideal)
      (Cert.Spec.affine (Cert.Spec.convAll (conv (F := Ideal)) (V c main_call0_v1) (V c main_call0_v4))
        (V c main_call0_v25) (V c main_call0_v26)) := by
  show (cfg1.win 4).cut (grid1.coords t) ((dat1 V c).after 4 t) = _
  rw [after1_4]
  unfold out1_4
  rw [View.canon_unit_zero azeros3]
  simp only [View.ld_unit_zero (S := S1x58x58x64) azeros4, View.ld_unit_zero (S := S128x576) azeros2,
    View.ld_unit_zero (S := S128x1) azeros2]
  rw [apply_image_block, apply_weights_block, apply_scale_block, apply_shift_block]
  obtain ⟨-, -, -, -, -, -, -, -, -, -, e0, e1, e2⟩ := apply_index t
  funext j
  rw [View.read_apply]
  refine (apply_pay_at _ _ _ _ _).trans ?_
  unfold Cert.Spec.affine Cert.Spec.convAll
  have h0 : (j 0).val < 1 := (j 0).isLt
  have hn : (((cfg1.win 4).blk t).view.emb j) 0 = t.cast N_1 := by
    apply Fin.ext
    show win1_4.index t (0 : Fin 3) * 1 + 1 * (j 0).val = t.val
    omega
  have hc : (((cfg1.win 4).blk t).view.emb j) 1 = ⟨(j 1).val, (j 1).isLt⟩ := by
    apply Fin.ext
    show win1_4.index t (1 : Fin 3) * 128 + 1 * (j 1).val = (j 1).val
    omega
  have hp : (((cfg1.win 4).blk t).view.emb j) 2 = ⟨(j 2).val, (j 2).isLt⟩ := by
    apply Fin.ext
    show win1_4.index t (2 : Fin 3) * 3136 + 1 * (j 2).val = (j 2).val
    omega
  show _ * _ + _ = _ * _ + _
  rw [hn, hc, hp]
  rfl

/-- An index of the output array is in point n's block iff each coordinate is in the block's range on its axis. -/
theorem apply_mem_blk (t : Fin cfg1.N) (i : S32x128x3136.Idx) :
    i ∈ ((cfg1.win 4).blk t).view.set ↔ ∀ a : Fin 3, win1_4.index t a * S1x128x3136.size a ≤ (i a).val ∧ (i a).val < win1_4.index t a * S1x128x3136.size a + S1x128x3136.size a := by
  show i ∈ ((View.whole main_call0_v27).slice (win1_4.rect t)).set ↔ _
  rw [View.set_slice_whole, Rect.mem_set_unit]
  exact Iff.rfl

/-- Every index of the output array is in the block of the point its image number names. -/
theorem apply_cover (i : S32x128x3136.Idx) :
    ∃ t : Fin cfg1.N, (cfg1.win 4).flush t = true ∧ i ∈ ((cfg1.win 4).blk t).view.set := by
  have hi0 : (i 0).val < 32 := (i 0).isLt
  have hi1 : (i 1).val < 128 := (i 1).isLt
  have hi2 : (i 2).val < 3136 := (i 2).isLt
  refine ⟨(⟨(i 0).val, hi0⟩ : Fin 32).cast N_1.symm, flush1_4 _, ?_⟩
  obtain ⟨-, -, -, -, -, -, -, -, -, -, e0, e1, e2⟩ := apply_index ((⟨(i 0).val, hi0⟩ : Fin 32).cast N_1.symm)
  rw [apply_mem_blk]
  intro a
  match a with
  | ⟨0, _⟩ => show win1_4.index _ (0 : Fin 3) * 1 ≤ (i 0).val ∧ (i 0).val < win1_4.index _ (0 : Fin 3) * 1 + 1; rw [e0]; show (i 0).val * 1 ≤ (i 0).val ∧ (i 0).val < (i 0).val * 1 + 1; omega
  | ⟨1, _⟩ => show win1_4.index _ (1 : Fin 3) * 128 ≤ (i 1).val ∧ (i 1).val < win1_4.index _ (1 : Fin 3) * 128 + 128; rw [e1]; omega
  | ⟨2, _⟩ => show win1_4.index _ (2 : Fin 3) * 3136 ≤ (i 2).val ∧ (i 2).val < win1_4.index _ (2 : Fin 3) * 3136 + 3136; rw [e2]; omega

/-- THE OUTPUT ARRAY after the region: every image's convolution, scaled and shifted channel by channel. -/
theorem apply_final (c : Dev nD) :
    (dat1 (F := Ideal) V c).arrAt 4 cfg1.N
      = Cert.Spec.affine (Cert.Spec.convAll (conv (F := Ideal)) (V c main_call0_v1) (V c main_call0_v4))
          (V c main_call0_v25) (V c main_call0_v26) :=
  (dat1 (F := Ideal) V c).arrAt_eq_of_cover 4 _ (fun t _ => apply_flushed V c t) apply_cover

end Cert.ReferenceIdeal.Hand
end
-- ==== Proof.LibPlainDot.lean ====
/-
  A plain matrix product read at an entry.

  For dimension numbers of the plain form — operands `[a, K]` and `[K, b]`, result `[a, b]`, the left operand's axis 1
  contracted with the right operand's axis 0, no batch axis — the left operand's index at result entry `(p, q)` and
  contraction position `k` is `(p, k)` and the right operand's is `(k, q)`.  On the extended reals both the vector unit's
  `tpu.matmul` into a zero accumulator and the host's `dot_general` are then the plain sum
  `Σ_k x(p, k) · w(k, q)` over `k : Fin K`.  Stated from hypotheses on the six dimension lists, so that it applies to any
  printed record of this form, whatever the extents.
-/
import Idealize.ShloMosaic.Lib.ValueIdx
import Idealize.ShloMosaic.PureOps.Ideal.Laws

noncomputable section

namespace Cert.Lib.PlainDot

open Idealize.ShloMosaic Idealize.ShloMosaic.ValueIdx

variable {a K b : Nat} (d : DotDims ⟨2, ![a, K]⟩ ⟨2, ![K, b]⟩ ⟨2, ![a, b]⟩)

/-- The left operand's row coordinate is the result's row coordinate. -/
theorem lhsIdx_row (hlb : d.lhsBatch = []) (hln : d.lhsNonContracting = [0])
    (j : (⟨2, ![a, b]⟩ : Shape).Idx) (k : d.contr.Idx) : (d.lhsIdx j k 0).val = (j 0).val := by
  unfold DotDims.lhsIdx
  have hb : (0 : Fin 2) ∉ d.lhsBatch := by rw [hlb]; exact List.not_mem_nil
  have hn : (0 : Fin 2) ∈ d.lhsNonContracting := by rw [hln]; exact List.mem_singleton.mpr rfl
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The right operand's column coordinate is the result's column coordinate. -/
theorem rhsIdx_col (hlb : d.lhsBatch = []) (hln : d.lhsNonContracting = [0]) (hrb : d.rhsBatch = [])
    (hrn : d.rhsNonContracting = [1])
    (j : (⟨2, ![a, b]⟩ : Shape).Idx) (k : d.contr.Idx) : (d.rhsIdx j k 1).val = (j 1).val := by
  unfold DotDims.rhsIdx
  have hb : (1 : Fin 2) ∉ d.rhsBatch := by rw [hrb]; exact List.not_mem_nil
  have hn : (1 : Fin 2) ∈ d.rhsNonContracting := by rw [hrn]; exact List.mem_singleton.mpr rfl
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

variable (hlb : d.lhsBatch = []) (hln : d.lhsNonContracting = [0]) (hlc : d.lhsContracting = [1])
  (hrb : d.rhsBatch = []) (hrn : d.rhsNonContracting = [1]) (hrc : d.rhsContracting = [0])
  (hr : d.contr.rank = 1) (hs : d.contr.size ⟨0, by omega⟩ = K)

include hlb hln hlc in
/-- The left operand is read at `(p, k)`. -/
theorem lhsIdx_plain (p : Fin a) (q : Fin b) (k : Fin K) :
    d.lhsIdx (ix2 p q) ((contrEquiv1 d K hr hs).symm k) = ix2 p k := by
  funext ax
  refine Fin.ext ?_
  match ax with
  | ⟨0, _⟩ => exact lhsIdx_row d hlb hln (ix2 p q) _
  | ⟨1, _⟩ =>
    show (d.lhsIdx (ix2 p q) ((contrEquiv1 d K hr hs).symm k) 1).val = k.val
    rw [DotDims.lhsIdx_val_of_single d hlc]
    exact contrEquiv1_symm_val d K hr hs k

include hlb hln hrb hrn hrc in
/-- The right operand is read at `(k, q)`. -/
theorem rhsIdx_plain (p : Fin a) (q : Fin b) (k : Fin K) :
    d.rhsIdx (ix2 p q) ((contrEquiv1 d K hr hs).symm k) = ix2 k q := by
  funext ax
  refine Fin.ext ?_
  match ax with
  | ⟨0, _⟩ =>
    show (d.rhsIdx (ix2 p q) ((contrEquiv1 d K hr hs).symm k) 0).val = k.val
    rw [DotDims.rhsIdx_val_of_single d hrc]
    exact contrEquiv1_symm_val d K hr hs k
  | ⟨1, _⟩ => exact rhsIdx_col d hlb hln hrb hrn (ix2 p q) _

include hlb hln hlc hrb hrn hrc hr hs in
/-- The vector unit's product into a zero accumulator, at `(p, q)`, is `Σ_k x(p, k) · w(k, q)`. -/
theorem matmul_zero_apply {φ₁ φ₂ : FTy} (prec : Option ContractPrecision)
    (x : FVec Ideal ⟨2, ![a, K]⟩ φ₁) (w : FVec Ideal ⟨2, ![K, b]⟩ φ₂) (p : Fin a) (q : Fin b) :
    (matmul (F := Ideal) d prec x w (constant ⟨2, ![a, b]⟩ .f32 0x00000000#32) (ix2 p q) : EReal)
      = ∑ k : Fin K, (x (ix2 p k) : EReal) * w (ix2 k q) := by
  show FloatOps.matmul d prec x w (constant ⟨2, ![a, b]⟩ .f32 0x00000000#32) (ix2 p q) = _
  rw [Ideal.matmul_constant_zero_apply, ← Equiv.sum_comp (contrEquiv1 d K hr hs).symm]
  exact Finset.sum_congr rfl fun k _ => by
    rw [lhsIdx_plain d hlb hln hlc hr hs, rhsIdx_plain d hlb hln hrb hrn hrc hr hs]

include hlb hln hlc hrb hrn hrc hr hs in
/-- The host's product, at `(p, q)`, is `Σ_k x(p, k) · w(k, q)`. -/
theorem dotGeneral_apply {φ₁ φ₂ : FTy} (prec : Option ContractPrecision)
    (x : FVec Ideal ⟨2, ![a, K]⟩ φ₁) (w : FVec Ideal ⟨2, ![K, b]⟩ φ₂) (p : Fin a) (q : Fin b) :
    (Host.dotGeneral (F := Ideal) d prec x w (ix2 p q) : EReal)
      = ∑ k : Fin K, (x (ix2 p k) : EReal) * w (ix2 k q) := by
  show FloatOps.dotGeneral d prec .single x w (ix2 p q) = _
  rw [Ideal.dotGeneral_apply, ← Equiv.sum_comp (contrEquiv1 d K hr hs).symm]
  exact Finset.sum_congr rfl fun k _ => by
    rw [lhsIdx_plain d hlb hln hlc hr hs, rhsIdx_plain d hlb hln hrb hrn hrc hr hs]

end Cert.Lib.PlainDot

end
-- ==== Proof.LibTransposedDot.lean ====
/-
  A matrix product against a transposed right factor, read at an entry.

  For dimension numbers of the form — operands `[a, K]` and `[b, K]`, result `[a, b]`, the left operand's axis 1
  contracted with the right operand's axis 1, no batch axis — the left operand's index at result entry `(p, q)` and
  contraction position `k` is `(p, k)` and the right operand's is `(q, k)`.  On the extended reals both the vector
  unit's `tpu.matmul` into a zero accumulator and the host's `dot_general` are then the plain sum
  `Σ_k x(p, k) · w(q, k)` over `k : Fin K`: the product of `x` with the transpose of `w`.  Stated from hypotheses on
  the six dimension lists, so that it applies to any printed record of this form, whatever the extents.
-/
import Idealize.ShloMosaic.Lib.ValueIdx
import Idealize.ShloMosaic.PureOps.Ideal.Laws

noncomputable section

namespace Cert.Lib.TransposedDot

open Idealize.ShloMosaic Idealize.ShloMosaic.ValueIdx

variable {a K b : Nat} (d : DotDims ⟨2, ![a, K]⟩ ⟨2, ![b, K]⟩ ⟨2, ![a, b]⟩)

/-- The left operand's row coordinate is the result's row coordinate. -/
theorem lhsIdx_row (hlb : d.lhsBatch = []) (hln : d.lhsNonContracting = [0])
    (j : (⟨2, ![a, b]⟩ : Shape).Idx) (k : d.contr.Idx) : (d.lhsIdx j k 0).val = (j 0).val := by
  unfold DotDims.lhsIdx
  have hb : (0 : Fin 2) ∉ d.lhsBatch := by rw [hlb]; exact List.not_mem_nil
  have hn : (0 : Fin 2) ∈ d.lhsNonContracting := by rw [hln]; exact List.mem_singleton.mpr rfl
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The right operand's row coordinate is the result's column coordinate. -/
theorem rhsIdx_row (hlb : d.lhsBatch = []) (hln : d.lhsNonContracting = [0]) (hrb : d.rhsBatch = [])
    (hrn : d.rhsNonContracting = [0])
    (j : (⟨2, ![a, b]⟩ : Shape).Idx) (k : d.contr.Idx) : (d.rhsIdx j k 0).val = (j 1).val := by
  unfold DotDims.rhsIdx
  have hb : (0 : Fin 2) ∉ d.rhsBatch := by rw [hrb]; exact List.not_mem_nil
  have hn : (0 : Fin 2) ∈ d.rhsNonContracting := by rw [hrn]; exact List.mem_singleton.mpr rfl
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

variable (hlb : d.lhsBatch = []) (hln : d.lhsNonContracting = [0]) (hlc : d.lhsContracting = [1])
  (hrb : d.rhsBatch = []) (hrn : d.rhsNonContracting = [0]) (hrc : d.rhsContracting = [1])
  (hr : d.contr.rank = 1) (hs : d.contr.size ⟨0, by omega⟩ = K)

include hlb hln hlc in
/-- The left operand is read at `(p, k)`. -/
theorem lhsIdx_transposed (p : Fin a) (q : Fin b) (k : Fin K) :
    d.lhsIdx (ix2 p q) ((contrEquiv1 d K hr hs).symm k) = ix2 p k := by
  funext ax
  refine Fin.ext ?_
  match ax with
  | ⟨0, _⟩ => exact lhsIdx_row d hlb hln (ix2 p q) _
  | ⟨1, _⟩ =>
    show (d.lhsIdx (ix2 p q) ((contrEquiv1 d K hr hs).symm k) 1).val = k.val
    rw [DotDims.lhsIdx_val_of_single d hlc]
    exact contrEquiv1_symm_val d K hr hs k

include hlb hln hrb hrn hrc in
/-- The right operand is read at `(q, k)`. -/
theorem rhsIdx_transposed (p : Fin a) (q : Fin b) (k : Fin K) :
    d.rhsIdx (ix2 p q) ((contrEquiv1 d K hr hs).symm k) = ix2 q k := by
  funext ax
  refine Fin.ext ?_
  match ax with
  | ⟨0, _⟩ => exact rhsIdx_row d hlb hln hrb hrn (ix2 p q) _
  | ⟨1, _⟩ =>
    show (d.rhsIdx (ix2 p q) ((contrEquiv1 d K hr hs).symm k) 1).val = k.val
    rw [DotDims.rhsIdx_val_of_single d hrc]
    exact contrEquiv1_symm_val d K hr hs k

include hlb hln hlc hrb hrn hrc hr hs in
/-- The vector unit's product into a zero accumulator, at `(p, q)`, is `Σ_k x(p, k) · w(q, k)`. -/
theorem matmul_zero_apply {φ₁ φ₂ : FTy} (prec : Option ContractPrecision)
    (x : FVec Ideal ⟨2, ![a, K]⟩ φ₁) (w : FVec Ideal ⟨2, ![b, K]⟩ φ₂) (p : Fin a) (q : Fin b) :
    (matmul (F := Ideal) d prec x w (constant ⟨2, ![a, b]⟩ .f32 0x00000000#32) (ix2 p q) : EReal)
      = ∑ k : Fin K, (x (ix2 p k) : EReal) * w (ix2 q k) := by
  show FloatOps.matmul d prec x w (constant ⟨2, ![a, b]⟩ .f32 0x00000000#32) (ix2 p q) = _
  rw [Ideal.matmul_constant_zero_apply, ← Equiv.sum_comp (contrEquiv1 d K hr hs).symm]
  exact Finset.sum_congr rfl fun k _ => by
    rw [lhsIdx_transposed d hlb hln hlc hr hs, rhsIdx_transposed d hlb hln hrb hrn hrc hr hs]

include hlb hln hlc hrb hrn hrc hr hs in
/-- The host's product, at `(p, q)`, is `Σ_k x(p, k) · w(q, k)`. -/
theorem dotGeneral_apply {φ₁ φ₂ : FTy} (prec : Option ContractPrecision)
    (x : FVec Ideal ⟨2, ![a, K]⟩ φ₁) (w : FVec Ideal ⟨2, ![b, K]⟩ φ₂) (p : Fin a) (q : Fin b) :
    (Host.dotGeneral (F := Ideal) d prec x w (ix2 p q) : EReal)
      = ∑ k : Fin K, (x (ix2 p k) : EReal) * w (ix2 q k) := by
  show FloatOps.dotGeneral d prec .single x w (ix2 p q) = _
  rw [Ideal.dotGeneral_apply, ← Equiv.sum_comp (contrEquiv1 d K hr hs).symm]
  exact Finset.sum_congr rfl fun k _ => by
    rw [lhsIdx_transposed d hlb hln hlc hr hs, rhsIdx_transposed d hlb hln hrb hrn hrc hr hs]

end Cert.Lib.TransposedDot

end
-- ==== Proof.BridgeConv.lean ====
/-
  One image's convolution is the same function in the two programs.

  Both build the same `[3136, 576]` patch matrix `P` from the padded image (nine shifted windows, flattened and laid
  side by side) and multiply it with the `[128, 576]` weights `w`.  The kernel contracts the second axis of both
  factors, `[128, 576] x [3136, 576]`; the reference first transposes `P` and contracts the weights' second axis
  with the transpose's first, `[128, 576] x [576, 3136]`.  Over the extended reals, into a zero accumulator, both are

      (c, p)  ↦  Σ_{k < 576}  w(c, k) · P(p, k),

  since entry `(k, p)` of the transpose is entry `(p, k)` of `P`.  The patch matrix is never opened: once the two
  products are read as sums, the two programs' patch terms are the same term.
-/
import Idealize.ShloMosaic.Lib.Pipeline.Value
import proofs.«162054_g2000305547337643_pallasbulk_427_5_alg».proof.Proof.Gen.KernelIdeal.Skeleton
import proofs.«162054_g2000305547337643_pallasbulk_427_5_alg».proof.Proof.Spec
import proofs.«162054_g2000305547337643_pallasbulk_427_5_alg».proof.Proof.RConv
import proofs.«162054_g2000305547337643_pallasbulk_427_5_alg».proof.Proof.LibPlainDot
import proofs.«162054_g2000305547337643_pallasbulk_427_5_alg».proof.Proof.LibTransposedDot

noncomputable section

open scoped BigOperators

namespace Cert.Bridge

open Idealize.ShloMosaic Idealize.ShloMosaic.ValueIdx

/-- Entry `(k, p)` of the transpose of an `[m, n]` matrix is its entry `(p, k)`. -/
theorem transpose2_apply {m n : Nat} {α : Type} (M : (⟨2, ![m, n]⟩ : Shape).Idx → α)
    (h : (⟨2, ![m, n]⟩ : Shape).Transposes [1, 0] ⟨2, ![n, m]⟩) (k : Fin n) (p : Fin m) :
    transpose ⟨2, ![n, m]⟩ [1, 0] M h (ix2 k p) = M (ix2 p k) :=
  transpose_apply [1, 0] M h (ix2 k p) (ix2 p k) (fun b => match b with | ⟨0, _⟩ => rfl | ⟨1, _⟩ => rfl)

/-- Contracting the second axes of `A` and `P` is contracting `A`'s second axis with the first axis of `P`'s
    transpose: term by term the same sum. -/
theorem sum_transposed_eq_sum_plain {a K b : Nat} (A : (⟨2, ![a, K]⟩ : Shape).Idx → EReal)
    (P : (⟨2, ![b, K]⟩ : Shape).Idx → EReal) (hT : (⟨2, ![b, K]⟩ : Shape).Transposes [1, 0] ⟨2, ![K, b]⟩)
    (c : Fin a) (p : Fin b) :
    ∑ k : Fin K, A (ix2 c k) * P (ix2 p k)
      = ∑ k : Fin K, A (ix2 c k) * transpose ⟨2, ![K, b]⟩ [1, 0] P hT (ix2 k p) :=
  Finset.sum_congr rfl fun k _ => congrArg (A (ix2 c k) * ·) (transpose2_apply P hT k p).symm

/-- One image's convolution is the same function in the two programs. -/
theorem conv_eq (x : Cert.Spec.SI.Idx → EReal) (w : Cert.Spec.SW.Idx → EReal) :
    Cert.KernelIdeal.Gen.k0_pay3 (F := Ideal) x w = Cert.ReferenceIdeal.Hand.conv (F := Ideal) x w := by
  funext j
  obtain ⟨c, p, rfl⟩ : ∃ (c : Fin 128) (p : Fin 3136), j = ix2 c p := ⟨j 0, j 1, eq_ix2 j⟩
  -- the kernel's product, read at (c, p): Σ_k w(c, k) · P(p, k)
  refine (Cert.Lib.TransposedDot.matmul_zero_apply
    Cert.KernelIdeal.dot_S128x576_S3136x576_S128x3136_1_1_0_0_n_n rfl rfl rfl rfl rfl rfl rfl rfl none _ _ c p).trans ?_
  -- the reference's product, read at (c, p): Σ_k w(c, k) · Pᵀ(k, p)
  refine Eq.trans ?_ (Cert.Lib.PlainDot.matmul_zero_apply
    Cert.ReferenceIdeal.dot_S128x576_S576x3136_S128x3136_1_0_0_1_n_n rfl rfl rfl rfl rfl rfl rfl rfl none _ _ c p).symm
  exact sum_transposed_eq_sum_plain _ _ _ c p

end Cert.Bridge

end
-- ==== Proof.LibBlockRuns.lean ====
/-
  Sums over `Fin (A·B)` taken as `A` runs of `B`, and the sum of a family that vanishes outside one run.

  A kernel that packs `A` small matrices into one block-diagonal matrix (a Kronecker product with the identity)
  contracts over every (block, lane) pair `k = a·B + r` with a factor that is zero unless `a` is the output's block:
  such a sum is the sum over the one surviving run.  Stated in any additive commutative monoid, so on the extended
  reals no finiteness is involved.  `N` is a separate variable with `hN : N = A * B`, so that the lemmas apply to a
  literal `Fin 2048` with `A B := 16 128` and `hN := rfl`.
-/
import Mathlib.Algebra.BigOperators.Fin
import Mathlib.Tactic.Linarith

namespace Cert.Lib.BlockRuns

/-- Position `r` of run `a`: the index `a·B + r` of `Fin N`, `N = A·B`. -/
def runIdx (A B N : ℕ) (hN : N = A * B) (a : Fin A) (r : Fin B) : Fin N :=
  ⟨a.val * B + r.val, by subst hN; have := a.isLt; have := r.isLt; nlinarith⟩

/-- A sum over `Fin (A·B)`, taken as `A` runs of `B`. -/
theorem sum_runs {M : Type*} [AddCommMonoid M] (A B N : ℕ) (hN : N = A * B) (f : Fin N → M) :
    ∑ k : Fin N, f k = ∑ a : Fin A, ∑ r : Fin B, f (runIdx A B N hN a r) := by
  subst hN
  rw [← Fintype.sum_prod_type' (f := fun (a : Fin A) (r : Fin B) => f (runIdx A B (A * B) rfl a r))]
  refine (Fintype.sum_equiv finProdFinEquiv.symm _ _ fun k => ?_)
  refine congrArg f (Fin.ext ?_)
  simp only [runIdx, finProdFinEquiv_symm_apply, Fin.coe_divNat, Fin.coe_modNat]
  exact (Nat.div_add_mod' k.val B).symm

/-- If only run `a0` carries anything — every other run's terms are zero — the sum is that run's. -/
theorem sum_one_run {M : Type*} [AddCommMonoid M] (A B N : ℕ) (hN : N = A * B) (f : Fin N → M) (g : Fin B → M) (a0 : Fin A)
    (hin : ∀ r : Fin B, f (runIdx A B N hN a0 r) = g r)
    (hout : ∀ (a : Fin A) (r : Fin B), a ≠ a0 → f (runIdx A B N hN a r) = 0) :
    ∑ k : Fin N, f k = ∑ r : Fin B, g r := by
  rw [sum_runs A B N hN f, Finset.sum_eq_single a0]
  · exact Finset.sum_congr rfl fun r _ => hin r
  · intro a _ ha
    exact Finset.sum_eq_zero fun r _ => hout a r ha
  · intro h; exact absurd (Finset.mem_univ a0) h

end Cert.Lib.BlockRuns
-- ==== Proof.LibHostLeadSum.lean ====
/-
  The host's sum over the leading axis, read at an entry, over the extended reals: a `stablehlo.reduce … add` along
  axis 0 of a `[G, a, b]` array, read at `(p, q)`, is the initial value's one element plus the sum over `g` of the
  entries `(g, p, q)`.  General in the extents and stated over indices built from coordinates; the reduction's side
  condition is a variable, so that whatever proof a program's text carries unifies with it.
-/
import Idealize.ShloMosaic.Lib.ValueIdx
import Idealize.ShloMosaic.PureOps.Ideal.Laws

namespace Cert.Lib.HostLeadSum

open Idealize.ShloMosaic Idealize.ShloMosaic.ValueIdx

/-- The host's sum along the leading axis of a rank-three array, read at `(p, q)`: the initial value's element plus
    the sum over the leading coordinate. -/
theorem hostSum_axis0_apply {G a b : ℕ} {u : Shape} (x : FVec Ideal ⟨3, ![G, a, b]⟩ .f32) (init : u.Idx → EReal)
    (h' : (⟨3, ![G, a, b]⟩ : Shape).ReducesTo [0] ⟨2, ![a, b]⟩) (hu : 0 < u.numel) (p : Fin a) (q : Fin b) :
    Host.reduceAdd (F := Ideal) (φ := .f32) x init h' hu (ix2 p q)
      = init (Shape.Idx.first hu) + ∑ g : Fin G, x (ix3 g p q) := by
  have h : (⟨3, ![G, a, b]⟩ : Shape).Reduces [0] ⟨2, ![a, b]⟩ := ⟨h'.1, Nat.succ_pos _, h'.2⟩
  show FloatOps.hostReduceAdd [0] h' .single x (init (Shape.Idx.first hu)) (ix2 p q) = _
  rw [Ideal.hostReduceAdd_def]
  refine (Ideal.hostReduceAdd_single h' h x _ (ix2 p q)).trans ?_
  refine congrArg (init (Shape.Idx.first hu) + ·) (Finset.sum_congr rfl fun k _ => congrArg x (funext fun d => ?_))
  match d with
  | ⟨0, _⟩ => rfl
  | ⟨1, _⟩ => rfl
  | ⟨2, _⟩ => rfl

end Cert.Lib.HostLeadSum
-- ==== Proof.BridgeTotals.lean ====
/-
  The statistics added up over all 32 images do not depend on first adding them up four consecutive images at a time.

  Both totals are the host's sum along the leading axis of a rank-three array into a `[128, 2]` array: read at an
  entry `(c, k)`, each is the initial value's element plus the sum over the leading coordinate.  The grouped array's
  entry `(g, c, k)` is the sum of the four per-image entries `4g, 4g+1, 4g+2, 4g+3`, so the two sums are one sum
  over `Fin 32` taken as eight runs of four — associativity and commutativity of addition on the extended reals,
  with no finiteness involved.
-/
import proofs.«162054_g2000305547337643_pallasbulk_427_5_alg».proof.Proof.Spec
import proofs.«162054_g2000305547337643_pallasbulk_427_5_alg».proof.Proof.LibBlockRuns
import proofs.«162054_g2000305547337643_pallasbulk_427_5_alg».proof.Proof.LibHostLeadSum

noncomputable section

open scoped BigOperators

namespace Cert.Bridge

open Idealize.ShloMosaic Idealize.ShloMosaic.ValueIdx Cert.Spec

/-- A sum of 32 terms, taken four consecutive terms at a time, in any additive commutative monoid. -/
theorem sum_by_fours {M : Type*} [AddCommMonoid M] (f : Fin 32 → M) :
    ∑ g : Fin 8, (((f (imgOf g 0) + f (imgOf g 1)) + f (imgOf g 2)) + f (imgOf g 3)) = ∑ n : Fin 32, f n := by
  rw [Cert.Lib.BlockRuns.sum_runs 8 4 32 rfl f]
  refine Finset.sum_congr rfl fun g _ => ?_
  rw [Fin.sum_univ_four]
  have e : ∀ i : Fin 4, Cert.Lib.BlockRuns.runIdx 8 4 32 rfl g i = imgOf g i := fun i =>
    Fin.ext (by show g.val * 4 + i.val = 4 * g.val + i.val; omega)
  rw [e 0, e 1, e 2, e 3]

/-- The statistics added up over all images do not depend on first adding them up four images at a time. -/
theorem tot_eq (cv : Cert.Spec.Conv) (xp : Cert.Spec.SX.Idx → EReal) (wf : Cert.Spec.SW.Idx → EReal)
    (z : (⟨0, ![]⟩ : Shape).Idx → EReal)
    (hK : (⟨3, ![8, 128, 2]⟩ : Shape).ReducesTo [0] ⟨2, ![128, 2]⟩)
    (hR : (⟨3, ![32, 128, 2]⟩ : Shape).ReducesTo [0] ⟨2, ![128, 2]⟩)
    (hu : 0 < (⟨0, ![]⟩ : Shape).numel) :
    Host.reduceAdd (F := Ideal) (φ := .f32) (Cert.Spec.statsGrouped cv xp wf) z hK hu
      = Host.reduceAdd (F := Ideal) (φ := .f32) (Cert.Spec.statsEach cv xp wf) z hR hu := by
  funext j
  obtain ⟨c, k, rfl⟩ : ∃ (c : Fin 128) (k : Fin 2), j = ix2 c k := ⟨j 0, j 1, eq_ix2 j⟩
  refine (Cert.Lib.HostLeadSum.hostSum_axis0_apply (statsGrouped cv xp wf) z hK hu c k).trans ?_
  refine Eq.trans ?_ (Cert.Lib.HostLeadSum.hostSum_axis0_apply (statsEach cv xp wf) z hR hu c k).symm
  exact congrArg (z (Shape.Idx.first hu) + ·) (sum_by_fours fun n => stat (cv (img xp n) wf) c k)

end Cert.Bridge

end
-- ==== Proof.JoinInputs.lean ====
/-
  Both programs stage the same two arrays for their convolutions: the input transposed to channels-last and padded by
  one pixel of zeros on each side of the two spatial axes, and the weights transposed to (output channel, kh, kw, input
  channel) and flattened to [128, 576].  The kernel additionally rounds both to bf16, which at the ideal instance is the
  identity, and a pad value converted from the integer zero is the same zero in either float format.  So from launch
  memories that agree on the arguments the two programs enter their first regions with equal arrays.
-/
import proofs.«162054_g2000305547337643_pallasbulk_427_5_alg».proof.Proof.Gen.KernelIdeal.Frame
import proofs.«162054_g2000305547337643_pallasbulk_427_5_alg».proof.Proof.Gen.ReferenceIdeal.Frame
import Idealize.ShloMosaic.Lib.ValueIdx
import Idealize.ShloMosaic.Lib.StableHlo.Run

set_option maxRecDepth 16384
noncomputable section
namespace Cert.Join
open Idealize.ShloMosaic Idealize.ShloMosaic.TcCoe Idealize.ShloMosaic.ValueIdx Idealize.SL.Sem Idealize.ShloMosaic.StableHlo

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ) (ρ' : Dev Cert.ReferenceIdeal.nD → PrngReg)

/-- The padded channels-last images are the same array in the two programs. -/
theorem xpad_eq (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) :
    Cert.KernelIdeal.Gen.V1 (F := Ideal) m ρ c Cert.KernelIdeal.main_call0_v2 = Cert.ReferenceIdeal.Gen.V1 (F := Ideal) m' ρ' c Cert.ReferenceIdeal.main_call0_v1 := by
  show StableHlo.after Cert.KernelIdeal.Gen.hostOps0 (Cert.KernelIdeal.Gen.W0 m ρ c) (Proc.devRef .tc Cert.KernelIdeal.main_call0_v2)
    = StableHlo.after Cert.ReferenceIdeal.Gen.hostOps0 (Cert.ReferenceIdeal.Gen.W0 m' ρ' c) (Proc.devRef .tc Cert.ReferenceIdeal.main_call0_v1)
  after_results
  simp only [TRef.toBuf, TRef.ofBuf, cast_eq]
  have eR : Cert.ReferenceIdeal.Gen.W0 (F := Ideal) m' ρ' c (Proc.devRef .tc Cert.ReferenceIdeal.main_arg0)
      = Cert.KernelIdeal.Gen.W0 (F := Ideal) m ρ c (Proc.devRef .tc Cert.KernelIdeal.main_arg0) := h0
  rw [eR]
  rfl

/-- The folded weights are the same array in the two programs. -/
theorem wf_eq (c : Dev Cert.KernelIdeal.nD)
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    Cert.KernelIdeal.Gen.V1 (F := Ideal) m ρ c Cert.KernelIdeal.main_call0_v6 = Cert.ReferenceIdeal.Gen.V1 (F := Ideal) m' ρ' c Cert.ReferenceIdeal.main_call0_v4 := by
  show StableHlo.after Cert.KernelIdeal.Gen.hostOps0 (Cert.KernelIdeal.Gen.W0 m ρ c) (Proc.devRef .tc Cert.KernelIdeal.main_call0_v6)
    = StableHlo.after Cert.ReferenceIdeal.Gen.hostOps0 (Cert.ReferenceIdeal.Gen.W0 m' ρ' c) (Proc.devRef .tc Cert.ReferenceIdeal.main_call0_v4)
  after_results
  simp only [TRef.toBuf, TRef.ofBuf, cast_eq]
  have eR : Cert.ReferenceIdeal.Gen.W0 (F := Ideal) m' ρ' c (Proc.devRef .tc Cert.ReferenceIdeal.main_arg1)
      = Cert.KernelIdeal.Gen.W0 (F := Ideal) m ρ c (Proc.devRef .tc Cert.KernelIdeal.main_arg1) := h1
  rw [eR]
  rfl

end Cert.Join
end
-- ==== Proof.JoinCoeffs.lean ====
/-
  Between their two regions both programs compute, on the host, the same per-channel coefficients from the summed
  statistics `tot : [128, 2]`, gamma and beta: mean = tot[:,0] / count, var = tot[:,1] / count - mean * mean,
  scale = gamma * rsqrt (var + eps), shift = beta - mean * scale, each stood up as a [128, 1] column (count and eps the
  same float words in both).  The kernel's program passes scale through a reshape to a column and back before using it
  for the shift, which changes nothing.  So if the summed statistics, gamma and beta agree when region 0 has ended, the
  two programs enter region 1 with the same scale and shift columns.
-/
import proofs.«162054_g2000305547337643_pallasbulk_427_5_alg».proof.Proof.Gen.KernelIdeal.Frame
import proofs.«162054_g2000305547337643_pallasbulk_427_5_alg».proof.Proof.Gen.ReferenceIdeal.Frame
import Idealize.ShloMosaic.Lib.Pipeline.Value
import Idealize.ShloMosaic.Lib.ValueIdx
import Idealize.ShloMosaic.Lib.StableHlo.Run

set_option maxRecDepth 16384
noncomputable section
namespace Cert.Join
open Idealize.ShloMosaic Idealize.ShloMosaic.TcCoe Idealize.ShloMosaic.ValueIdx Idealize.SL.Sem Idealize.ShloMosaic.StableHlo

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ) (ρ' : Dev Cert.ReferenceIdeal.nD → PrngReg)

set_option maxHeartbeats 2000000 in
/-- The scale columns agree. -/
theorem scale_eq (c : Dev Cert.KernelIdeal.nD)
    (hg : Cert.ReferenceIdeal.Gen.W2 (F := Ideal) m' ρ' c (Proc.devRef .tc Cert.ReferenceIdeal.main_arg2)
      = Cert.KernelIdeal.Gen.W2 (F := Ideal) m ρ c (Proc.devRef .tc Cert.KernelIdeal.main_arg2))
    (hb : Cert.ReferenceIdeal.Gen.W2 (F := Ideal) m' ρ' c (Proc.devRef .tc Cert.ReferenceIdeal.main_arg3)
      = Cert.KernelIdeal.Gen.W2 (F := Ideal) m ρ c (Proc.devRef .tc Cert.KernelIdeal.main_arg3))
    (hT : Host.reduceAdd (F := Ideal) (Cert.ReferenceIdeal.Gen.W2 (F := Ideal) m' ρ' c (Proc.devRef .tc Cert.ReferenceIdeal.main_call0_v5))
        (constant Cert.ReferenceIdeal.S_ .f32 0#32) Cert.ReferenceIdeal.Gen.reducesTo_S32x128x2_S128x2_d0 Cert.ReferenceIdeal.Gen.h_S_
      = Host.reduceAdd (F := Ideal) (Cert.KernelIdeal.Gen.W2 (F := Ideal) m ρ c (Proc.devRef .tc Cert.KernelIdeal.main_call0_v7_1))
        (constant Cert.KernelIdeal.S_ .f32 0#32) Cert.KernelIdeal.Gen.reducesTo_S8x128x2_S128x2_d0 Cert.KernelIdeal.Gen.h_S_) :
    Cert.KernelIdeal.Gen.V3 (F := Ideal) m ρ c Cert.KernelIdeal.main_call0_v25 = Cert.ReferenceIdeal.Gen.V3 (F := Ideal) m' ρ' c Cert.ReferenceIdeal.main_call0_v25 := by
  show StableHlo.after Cert.KernelIdeal.Gen.hostOps1 (Cert.KernelIdeal.Gen.W2 m ρ c) (Proc.devRef .tc Cert.KernelIdeal.main_call0_v25)
    = StableHlo.after Cert.ReferenceIdeal.Gen.hostOps1 (Cert.ReferenceIdeal.Gen.W2 m' ρ' c) (Proc.devRef .tc Cert.ReferenceIdeal.main_call0_v25)
  after_results_simp
  simp only [TRef.toBuf, TRef.ofBuf, cast_eq]
  rw [hg, hT]
  rfl

set_option maxHeartbeats 2000000 in
/-- The shift columns agree. -/
theorem shift_eq (c : Dev Cert.KernelIdeal.nD)
    (hg : Cert.ReferenceIdeal.Gen.W2 (F := Ideal) m' ρ' c (Proc.devRef .tc Cert.ReferenceIdeal.main_arg2)
      = Cert.KernelIdeal.Gen.W2 (F := Ideal) m ρ c (Proc.devRef .tc Cert.KernelIdeal.main_arg2))
    (hb : Cert.ReferenceIdeal.Gen.W2 (F := Ideal) m' ρ' c (Proc.devRef .tc Cert.ReferenceIdeal.main_arg3)
      = Cert.KernelIdeal.Gen.W2 (F := Ideal) m ρ c (Proc.devRef .tc Cert.KernelIdeal.main_arg3))
    (hT : Host.reduceAdd (F := Ideal) (Cert.ReferenceIdeal.Gen.W2 (F := Ideal) m' ρ' c (Proc.devRef .tc Cert.ReferenceIdeal.main_call0_v5))
        (constant Cert.ReferenceIdeal.S_ .f32 0#32) Cert.ReferenceIdeal.Gen.reducesTo_S32x128x2_S128x2_d0 Cert.ReferenceIdeal.Gen.h_S_
      = Host.reduceAdd (F := Ideal) (Cert.KernelIdeal.Gen.W2 (F := Ideal) m ρ c (Proc.devRef .tc Cert.KernelIdeal.main_call0_v7_1))
        (constant Cert.KernelIdeal.S_ .f32 0#32) Cert.KernelIdeal.Gen.reducesTo_S8x128x2_S128x2_d0 Cert.KernelIdeal.Gen.h_S_) :
    Cert.KernelIdeal.Gen.V3 (F := Ideal) m ρ c Cert.KernelIdeal.main_call0_v29 = Cert.ReferenceIdeal.Gen.V3 (F := Ideal) m' ρ' c Cert.ReferenceIdeal.main_call0_v26 := by
  show StableHlo.after Cert.KernelIdeal.Gen.hostOps1 (Cert.KernelIdeal.Gen.W2 m ρ c) (Proc.devRef .tc Cert.KernelIdeal.main_call0_v29)
    = StableHlo.after Cert.ReferenceIdeal.Gen.hostOps1 (Cert.ReferenceIdeal.Gen.W2 m' ρ' c) (Proc.devRef .tc Cert.ReferenceIdeal.main_call0_v26)
  after_results_simp
  simp only [TRef.toBuf, TRef.ofBuf, cast_eq, shapeCast_shapeCast]
  rw [hg, hT]
  rw [hb]
  try rfl

end Cert.Join
end
-- ==== Proof.lean ====
/-
  The certificate of a 3 by 3 convolution (no bias) followed by batch normalisation with batch statistics, over
  f32[32, 64, 56, 56] inputs and 128 output channels.

  The kernel program convolves every image ONCE, four images per grid point: it stores the convolution, and per group of
  four images the row sums of the convolution and of its square, added up image after image; the host adds the eight
  groups' sums, forms mean, variance, scale = gamma * rsqrt (var + eps) and shift = beta - mean * scale, and a second
  pallas_call streams the stored convolution through conv * scale + shift.  The reference convolves every image TWICE,
  one image per grid point: once for the per-image sums, which the host adds up over the 32 images, and once more in
  its second pallas_call, which applies conv * scale + shift at once.

  At the ideal instance the two agree entry by entry.  One image's convolution is the same function in both: the same
  nine shifted windows side by side as the patch matrix, multiplied by the weights with the contraction written over
  the patch matrix's second axis in the kernel and over its transpose's first axis in the reference (the bf16 rounding
  of the kernel's operands and of its stored convolution is the identity here).  The sum of the statistics over the 32
  images does not depend on first adding them four at a time: addition of extended reals is commutative and associative,
  infinities included, so no finiteness of the inputs is used.  The host computations of scale and shift are the same
  operations on the same float words.  The three frames are the generated ones; nothing was rewritten by the ideal pass.
-/
import proofs.«162054_g2000305547337643_pallasbulk_427_5_alg».proof.Defs
import proofs.«162054_g2000305547337643_pallasbulk_427_5_alg».proof.Proof.Gen.Kernel
import proofs.«162054_g2000305547337643_pallasbulk_427_5_alg».proof.Proof.Gen.Kernel.Frame
import proofs.«162054_g2000305547337643_pallasbulk_427_5_alg».proof.Proof.Gen.KernelIdeal
import proofs.«162054_g2000305547337643_pallasbulk_427_5_alg».proof.Proof.Gen.KernelIdeal.Frame
import proofs.«162054_g2000305547337643_pallasbulk_427_5_alg».proof.Proof.Gen.ReferenceIdeal
import proofs.«162054_g2000305547337643_pallasbulk_427_5_alg».proof.Proof.Gen.ReferenceIdeal.Frame
import proofs.«162054_g2000305547337643_pallasbulk_427_5_alg».proof.Proof.Gen.Pre_finite_inputs
import proofs.«162054_g2000305547337643_pallasbulk_427_5_alg».proof.Proof.KRun
import proofs.«162054_g2000305547337643_pallasbulk_427_5_alg».proof.Proof.RRun
import proofs.«162054_g2000305547337643_pallasbulk_427_5_alg».proof.Proof.KBoundary
import proofs.«162054_g2000305547337643_pallasbulk_427_5_alg».proof.Proof.RBoundary
import proofs.«162054_g2000305547337643_pallasbulk_427_5_alg».proof.Proof.KRegion0
import proofs.«162054_g2000305547337643_pallasbulk_427_5_alg».proof.Proof.KRegion1
import proofs.«162054_g2000305547337643_pallasbulk_427_5_alg».proof.Proof.RRegion0
import proofs.«162054_g2000305547337643_pallasbulk_427_5_alg».proof.Proof.RRegion1
import proofs.«162054_g2000305547337643_pallasbulk_427_5_alg».proof.Proof.BridgeConv
import proofs.«162054_g2000305547337643_pallasbulk_427_5_alg».proof.Proof.BridgeTotals
import proofs.«162054_g2000305547337643_pallasbulk_427_5_alg».proof.Proof.JoinInputs
import proofs.«162054_g2000305547337643_pallasbulk_427_5_alg».proof.Proof.JoinCoeffs
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.StableHlo

/-- One image's convolution is one function, whichever program spells it. -/
theorem conv_fun_eq : (Cert.KernelIdeal.Gen.k0_pay3 (F := Ideal) : Cert.Spec.Conv) = Cert.ReferenceIdeal.Hand.conv (F := Ideal) :=
  funext fun x => funext fun w => Cert.Bridge.conv_eq x w

section Result

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ) (ρ' : Dev Cert.ReferenceIdeal.nD → PrngReg)

/-- From launch memories that agree on the four arguments the two programs' result arrays end equal. -/
theorem result_eq (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Cert.ReferenceIdeal.Gen.W5 (F := Ideal) m' ρ' c (Proc.devRef .tc Cert.ReferenceIdeal.main_v0)
      = Cert.KernelIdeal.Gen.W5 (F := Ideal) m ρ c (Proc.devRef .tc Cert.KernelIdeal.main_v0) := by
  -- the staged inputs agree
  have hx := Cert.Join.xpad_eq m ρ m' ρ' c h0
  have hw := Cert.Join.wf_eq m ρ m' ρ' c h1
  -- gamma and beta as the regions' boundary finds them
  have hg : Cert.ReferenceIdeal.Gen.W2 (F := Ideal) m' ρ' c (Proc.devRef .tc Cert.ReferenceIdeal.main_arg2)
      = Cert.KernelIdeal.Gen.W2 (F := Ideal) m ρ c (Proc.devRef .tc Cert.KernelIdeal.main_arg2) :=
    (Cert.ReferenceIdeal.Hand.W2_main_arg2 m' ρ' c).trans (h2.trans (Cert.KernelIdeal.Hand.W2_main_arg2 m ρ c).symm)
  have hb : Cert.ReferenceIdeal.Gen.W2 (F := Ideal) m' ρ' c (Proc.devRef .tc Cert.ReferenceIdeal.main_arg3)
      = Cert.KernelIdeal.Gen.W2 (F := Ideal) m ρ c (Proc.devRef .tc Cert.KernelIdeal.main_arg3) :=
    (Cert.ReferenceIdeal.Hand.W2_main_arg3 m' ρ' c).trans (h3.trans (Cert.KernelIdeal.Hand.W2_main_arg3 m ρ c).symm)
  -- the summed statistics agree
  have hT : Host.reduceAdd (F := Ideal) (Cert.ReferenceIdeal.Gen.W2 (F := Ideal) m' ρ' c (Proc.devRef .tc Cert.ReferenceIdeal.main_call0_v5))
        (constant Cert.ReferenceIdeal.S_ .f32 0#32) Cert.ReferenceIdeal.Gen.reducesTo_S32x128x2_S128x2_d0 Cert.ReferenceIdeal.Gen.h_S_
      = Host.reduceAdd (F := Ideal) (Cert.KernelIdeal.Gen.W2 (F := Ideal) m ρ c (Proc.devRef .tc Cert.KernelIdeal.main_call0_v7_1))
        (constant Cert.KernelIdeal.S_ .f32 0#32) Cert.KernelIdeal.Gen.reducesTo_S8x128x2_S128x2_d0 Cert.KernelIdeal.Gen.h_S_ := by
    rw [Cert.ReferenceIdeal.Hand.W2_stats, Cert.KernelIdeal.Hand.W2_stats, Cert.ReferenceIdeal.Hand.stats_final,
      Cert.KernelIdeal.Hand.stats_final, hx, hw, conv_fun_eq]
    exact (Cert.Bridge.tot_eq _ _ _ _ _ _ _).symm
  have hscale := Cert.Join.scale_eq m ρ m' ρ' c hg hb hT
  have hshift := Cert.Join.shift_eq m ρ m' ρ' c hg hb hT
  -- the stored convolution is the stack of the images' convolutions, which the reference recomputes
  have hconv : Cert.KernelIdeal.Gen.V3 (F := Ideal) m ρ c Cert.KernelIdeal.main_call0_v7_0
      = Cert.Spec.convAll (Cert.ReferenceIdeal.Hand.conv (F := Ideal))
          (Cert.ReferenceIdeal.Gen.V3 (F := Ideal) m' ρ' c Cert.ReferenceIdeal.main_call0_v1)
          (Cert.ReferenceIdeal.Gen.V3 (F := Ideal) m' ρ' c Cert.ReferenceIdeal.main_call0_v4) := by
    rw [Cert.ReferenceIdeal.Hand.V3_xpad, Cert.ReferenceIdeal.Hand.V3_wf, ← hx, ← hw, ← conv_fun_eq]
    exact ((Cert.KernelIdeal.Hand.W3_conv m ρ c).trans (Cert.KernelIdeal.Hand.W2_conv m ρ c)).trans
      (Cert.KernelIdeal.Hand.conv_final (Cert.KernelIdeal.Gen.V1 m ρ) c)
  -- the last host operation is the same reshape of the two regions' outputs
  show StableHlo.after Cert.ReferenceIdeal.Gen.hostOps2 (Cert.ReferenceIdeal.Gen.W4 m' ρ' c) (Proc.devRef .tc Cert.ReferenceIdeal.main_v0)
    = StableHlo.after Cert.KernelIdeal.Gen.hostOps2 (Cert.KernelIdeal.Gen.W4 m ρ c) (Proc.devRef .tc Cert.KernelIdeal.main_v0)
  after_results
  simp only [TRef.toBuf, TRef.ofBuf, cast_eq]
  rw [Cert.ReferenceIdeal.Hand.W4_out, Cert.KernelIdeal.Hand.W4_out, Cert.ReferenceIdeal.Hand.apply_final,
    Cert.KernelIdeal.Hand.affine_final, hconv, hscale, hshift]
  all_goals rfl

end Result

/-! ## The claims -/

theorem frame_kernel : Cert.frame_Kernel (hKernel := Cert.Kernel.Gen.facts) (hPre_finite_inputs := Cert.Pre_finite_inputs.Gen.facts) :=
  fun m ρ _ => Cert.Kernel.Gen.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

theorem frame_referenceIdeal : Cert.frame_ReferenceIdeal (hReferenceIdeal := Cert.ReferenceIdeal.Gen.facts) (hPre_finite_inputs := Cert.Pre_finite_inputs.Gen.facts) :=
  fun m ρ _ => Cert.ReferenceIdeal.Gen.frame m ρ

/-- The ideal pass rewrote nothing: the idealized kernel is the kernel's own text read at the ideal instance. -/
theorem preserves : Cert.preserves_Kernel_KernelIdeal := trivial

/-- Both programs run, the arguments unchanged, and end with equal results: each at the last boundary's contents of its
    own run, which are equal (`result_eq`). -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Gen.W5 (F := Ideal) m ρ c (Proc.devRef .tc Cert.KernelIdeal.main_v0),
    Cert.KernelIdeal.Hand.run_result (F := Ideal) m ρ, ?_⟩
  refine (θ_run Cert.ReferenceIdeal.defs _ _).mono (fun r h c => ⟨(h c).1.trans ?_, (h c).2⟩)
    (Cert.ReferenceIdeal.Hand.run_result (F := Ideal) m' ρ')
  exact result_eq m ρ m' ρ' c (hagree c).1 (hagree c).2.1 (hagree c).2.2.1 (hagree c).2.2.2

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
